-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x14x14 : Shape := ⟨4, ![256, 512, 14, 14]⟩
abbrev S_ : Shape := ⟨0, ![]⟩

class Facts : Prop where
  bcast_S_S256x512x14x14 : S_.BroadcastsInDim S256x512x14x14 (![] : Fin 0 → Fin S256x512x14x14.rank)
  reducesTo_S256x512x14x14_S_d0_1_2_3 : S256x512x14x14.ReducesTo [0, 1, 2, 3] S_
  h_S_ : 0 < S_.numel

variable [Facts]

def fn {F : FTy → Type} [FloatOps F] (main_arg0 : FVec F S256x512x14x14 .f32) (main_arg1 : FVec F S256x512x14x14 .f32) : IVec S_ 1 :=
  let main_v0 : FVec F S256x512x14x14 .f32 := Host.absf main_arg0
  let main_cst : FVec F S_ .f32 := constant S_ .f32 0x7F800000#32
  let main_v1 : FVec F S256x512x14x14 .f32 := broadcastInDim S256x512x14x14 ![] bcast_S_S256x512x14x14 main_cst
  let main_v2 : IVec S256x512x14x14 1 := cmpf .olt main_v0 main_v1
  let main_c : IVec S_ 1 := constantI S_ 1 1#1
  let main_v3 : IVec S_ 1 := (fun x v => Host.reduce IntOp.andi x v reducesTo_S256x512x14x14_S_d0_1_2_3 h_S_) main_v2 main_c
  let main_v4 : FVec F S256x512x14x14 .f32 := Host.absf main_arg1
  let main_cst_0 : FVec F S_ .f32 := constant S_ .f32 0x7F800000#32
  let main_v5 : FVec F S256x512x14x14 .f32 := broadcastInDim S256x512x14x14 ![] bcast_S_S256x512x14x14 main_cst_0
  let main_v6 : IVec S256x512x14x14 1 := cmpf .olt main_v4 main_v5
  let main_c_1 : IVec S_ 1 := constantI S_ 1 1#1
  let main_v7 : IVec S_ 1 := (fun x v => Host.reduce IntOp.andi x v reducesTo_S256x512x14x14_S_d0_1_2_3 h_S_) main_v6 main_c_1
  let main_v8 : IVec S_ 1 := andi main_v3 main_v7
  main_v8
-- ==== Kernel.lean ====
abbrev S256x512x14x14 : Shape := ⟨4, ![256, 512, 14, 14]⟩
abbrev S256x100352 : Shape := ⟨2, ![256, 100352]⟩
abbrev S2x256x256 : Shape := ⟨3, ![2, 256, 256]⟩
abbrev S2x1x256 : Shape := ⟨3, ![2, 1, 256]⟩
abbrev S256x12544 : Shape := ⟨2, ![256, 12544]⟩
abbrev S1x256x256 : Shape := ⟨3, ![1, 256, 256]⟩
abbrev S1x1x256 : Shape := ⟨3, ![1, 1, 256]⟩
abbrev S256x256 : Shape := ⟨2, ![256, 256]⟩
abbrev S1x256 : Shape := ⟨2, ![1, 256]⟩
abbrev S256 : Shape := ⟨1, ![256]⟩
abbrev S_ : Shape := ⟨0, ![]⟩
abbrev S256x1 : Shape := ⟨2, ![256, 1]⟩

abbrev nBuf : Space → Nat
  | .hbm => 92
  | .vmem => 14
  | .smem => 0
  | _ => 0

abbrev bufTy : (tb : Table) → Fin (tcTables nBuf tb) → BufTy
  | .hbm, ⟨0, _⟩ => ⟨S256x512x14x14, .f32⟩
  | .hbm, ⟨1, _⟩ => ⟨S256x512x14x14, .f32⟩
  | .hbm, ⟨2, _⟩ => ⟨S256x100352, .f32⟩
  | .hbm, ⟨3, _⟩ => ⟨S256x100352, .bf16⟩
  | .hbm, ⟨4, _⟩ => ⟨S256x100352, .f32⟩
  | .hbm, ⟨5, _⟩ => ⟨S256x100352, .bf16⟩
  | .hbm, ⟨6, _⟩ => ⟨S2x256x256, .f32⟩
  | .hbm, ⟨7, _⟩ => ⟨S2x256x256, .f32⟩
  | .hbm, ⟨8, _⟩ => ⟨S2x256x256, .f32⟩
  | .hbm, ⟨9, _⟩ => ⟨S2x1x256, .f32⟩
  | .hbm, ⟨10, _⟩ => ⟨S2x1x256, .f32⟩
  | .hbm, ⟨11, _⟩ => ⟨S_, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S_, .f32⟩
  | .hbm, ⟨18, _⟩ => ⟨S1x256, .f32⟩
  | .hbm, ⟨19, _⟩ => ⟨S256, .f32⟩
  | .hbm, ⟨20, _⟩ => ⟨S_, .f32⟩
  | .hbm, ⟨21, _⟩ => ⟨S1x256, .f32⟩
  | .hbm, ⟨22, _⟩ => ⟨S256, .f32⟩
  | .hbm, ⟨23, _⟩ => ⟨S256x1, .f32⟩
  | .hbm, ⟨24, _⟩ => ⟨S1x256, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x1, .f32⟩
  | .hbm, ⟨44, _⟩ => ⟨S1x256, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S_, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S256x1, .f32⟩
  | .hbm, ⟨64, _⟩ => ⟨S1x256, .f32⟩
  | .hbm, ⟨65, _⟩ => ⟨S256x256, .f32⟩
  | .hbm, ⟨66, _⟩ => ⟨S256x256, .f32⟩
  | .hbm, ⟨67, _⟩ => ⟨S256x256, .f32⟩
  | .hbm, ⟨68, _⟩ => ⟨S_, .f32⟩
  | .hbm, ⟨69, _⟩ => ⟨S256x256, .f32⟩
  | .hbm, ⟨70, _⟩ => ⟨S256x256, .f32⟩
  | .hbm, ⟨71, _⟩ => ⟨S256x256, .f32⟩
  | .hbm, ⟨72, _⟩ => ⟨S_, .f32⟩
  | .hbm, ⟨73, _⟩ => ⟨S256x256, .f32⟩
  | .hbm, ⟨74, _⟩ => ⟨S256x256, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S_, .f32⟩
  | .hbm, ⟨80, _⟩ => ⟨S256x256, .f32⟩
  | .hbm, ⟨81, _⟩ => ⟨S256x256, .f32⟩
  | .hbm, ⟨82, _⟩ => ⟨S256x256, .f32⟩
  | .hbm, ⟨83, _⟩ => ⟨S256x256, .f32⟩
  | .hbm, ⟨84, _⟩ => ⟨S_, .f32⟩
  | .hbm, ⟨85, _⟩ => ⟨S256x256, .f32⟩
  | .hbm, ⟨86, _⟩ => ⟨S256x256, .f32⟩
  | .hbm, ⟨87, _⟩ => ⟨S256x256, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .local _ .vmem, ⟨0, _⟩ => ⟨S256x12544, .bf16⟩
  | .local _ .vmem, ⟨1, _⟩ => ⟨S256x12544, .bf16⟩
  | .local _ .vmem, ⟨2, _⟩ => ⟨S256x12544, .bf16⟩
  | .local _ .vmem, ⟨3, _⟩ => ⟨S256x12544, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | _, _ => ⟨S256x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v4_3 : Ref sig .tc := ⟨.hbm, 9, rfl⟩
abbrev main_v4_4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_17 : Ref sig .tc := ⟨.hbm, 88, rfl⟩
abbrev main_v64 : Ref sig .tc := ⟨.hbm, 89, rfl⟩
abbrev main_cst_18 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x12544 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x12544 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S256x512x14x14_S256x100352 : S256x512x14x14.ShapeCasts S256x100352
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S256x12544_S256x12544_0_0 : ∀ a, (![0, 0] : Fin 2 → Nat) a + S256x12544.size a ≤ S256x12544.size a
  h_S256x12544 : 0 < S256x12544.numel
  shapeCasts_S256x12544_S256x12544 : S256x12544.ShapeCasts S256x12544
  reduces_S256x12544_S256 : S256x12544.Reduces [1] S256
  shapeCasts_S256_S1x256 : S256.ShapeCasts S1x256
  reducesTo_S2x256x256_S256x256_d0 : S2x256x256.ReducesTo [0] S256x256
  h_S_ : 0 < S_.numel
  reducesTo_S2x1x256_S1x256_d0 : S2x1x256.ReducesTo [0] S1x256
  shapeCasts_S1x256_S256 : S1x256.ShapeCasts S256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S_d0_1 : S256x256.ReducesTo [0, 1] S_
  dot_S256x12544_S256x12544_S256x256_1_1_0_0_n_n_wf : DotDims.WF S256x12544 S256x12544 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x12544.size a ≤ S256x100352.size a
  hwx0_0 : ∀ i : grid0.Coords, EltTy.bits .bf16 = 32 ∨ (Rect.block (s := S256x100352) S256x12544.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x12544.size a ≤ S256x100352.size a
  hwx0_1 : ∀ i : grid0.Coords, EltTy.bits .bf16 = 32 ∨ (Rect.block (s := S256x100352) S256x12544.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S2x256x256.size a
  hwx0_2 : ∀ i : grid0.Coords, EltTy.bits .f32 = 32 ∨ (Rect.block (s := S2x256x256) S1x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S2x256x256.size a
  hwx0_3 : ∀ i : grid0.Coords, EltTy.bits .f32 = 32 ∨ (Rect.block (s := S2x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S2x256x256.size a
  hwx0_4 : ∀ i : grid0.Coords, EltTy.bits .f32 = 32 ∨ (Rect.block (s := S2x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S2x1x256.size a
  hwx0_5 : ∀ i : grid0.Coords, EltTy.bits .f32 = 32 ∨ (Rect.block (s := S2x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S2x1x256.size a
  hwx0_6 : ∀ i : grid0.Coords, EltTy.bits .f32 = 32 ∨ (Rect.block (s := S2x1x256) S1x1x256.size (cc0_transform_6 i) (hinb0_6 i)).WholeWords (EltTy.packing .f32)

variable [Facts₀]

def dot_S256x12544_S256x12544_S256x256_1_1_0_0_n_n : DotDims S256x12544 S256x12544 S256x256 where
  lhsContracting := [1]
  rhsContracting := [1]
  lhsNonContracting := [0]
  rhsNonContracting := [0]
  lhsBatch := []
  rhsBatch := []
  wf := dot_S256x12544_S256x12544_S256x256_1_1_0_0_n_n_wf

abbrev win0_0 : Pipeline.Window sig grid0 :=
  Pipeline.Window.ofSpec (Memref.whole main_v1) S256x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x12544.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S1x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_3) S1x1x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_4) S1x1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x512x14x14 : Shape := ⟨4, ![256, 512, 14, 14]⟩
abbrev S256x100352 : Shape := ⟨2, ![256, 100352]⟩
abbrev S_ : Shape := ⟨0, ![]⟩
abbrev S256 : Shape := ⟨1, ![256]⟩
abbrev S100352x256 : Shape := ⟨2, ![100352, 256]⟩
abbrev S256x256 : Shape := ⟨2, ![256, 256]⟩
abbrev S256x1 : Shape := ⟨2, ![256, 1]⟩
abbrev S1x256 : Shape := ⟨2, ![1, 256]⟩

abbrev nBuf : Space → Nat
  | .hbm => 97
  | .vmem => 0
  | .smem => 0
  | _ => 0

abbrev bufTy : (tb : Table) → Fin (tcTables nBuf tb) → BufTy
  | .hbm, ⟨0, _⟩ => ⟨S256x512x14x14, .f32⟩
  | .hbm, ⟨1, _⟩ => ⟨S256x512x14x14, .f32⟩
  | .hbm, ⟨2, _⟩ => ⟨S256x100352, .f32⟩
  | .hbm, ⟨3, _⟩ => ⟨S256x100352, .f32⟩
  | .hbm, ⟨4, _⟩ => ⟨S256x100352, .f32⟩
  | .hbm, ⟨5, _⟩ => ⟨S_, .f32⟩
  | .hbm, ⟨6, _⟩ => ⟨S256, .f32⟩
  | .hbm, ⟨7, _⟩ => ⟨S256x100352, .f32⟩
  | .hbm, ⟨8, _⟩ => ⟨S_, .f32⟩
  | .hbm, ⟨9, _⟩ => ⟨S256, .f32⟩
  | .hbm, ⟨10, _⟩ => ⟨S100352x256, .f32⟩
  | .hbm, ⟨11, _⟩ => ⟨S256x256, .f32⟩
  | .hbm, ⟨12, _⟩ => ⟨S256x1, .f32⟩
  | .hbm, ⟨13, _⟩ => ⟨S1x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x100352, .f32⟩
  | .hbm, ⟨33, _⟩ => ⟨S_, .f32⟩
  | .hbm, ⟨34, _⟩ => ⟨S256, .f32⟩
  | .hbm, ⟨35, _⟩ => ⟨S256x100352, .f32⟩
  | .hbm, ⟨36, _⟩ => ⟨S_, .f32⟩
  | .hbm, ⟨37, _⟩ => ⟨S256, .f32⟩
  | .hbm, ⟨38, _⟩ => ⟨S100352x256, .f32⟩
  | .hbm, ⟨39, _⟩ => ⟨S256x256, .f32⟩
  | .hbm, ⟨40, _⟩ => ⟨S256x1, .f32⟩
  | .hbm, ⟨41, _⟩ => ⟨S1x256, .f32⟩
  | .hbm, ⟨42, _⟩ => ⟨S256x256, .f32⟩
  | .hbm, ⟨43, _⟩ => ⟨S256x256, .f32⟩
  | .hbm, ⟨44, _⟩ => ⟨S256x256, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S_, .f32⟩
  | .hbm, ⟨50, _⟩ => ⟨S256x256, .f32⟩
  | .hbm, ⟨51, _⟩ => ⟨S256x256, .f32⟩
  | .hbm, ⟨52, _⟩ => ⟨S_, .f32⟩
  | .hbm, ⟨53, _⟩ => ⟨S256x256, .f32⟩
  | .hbm, ⟨54, _⟩ => ⟨S256x256, .f32⟩
  | .hbm, ⟨55, _⟩ => ⟨S256x256, .f32⟩
  | .hbm, ⟨56, _⟩ => ⟨S_, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S256x100352, .f32⟩
  | .hbm, ⟨61, _⟩ => ⟨S_, .f32⟩
  | .hbm, ⟨62, _⟩ => ⟨S256, .f32⟩
  | .hbm, ⟨63, _⟩ => ⟨S256x100352, .f32⟩
  | .hbm, ⟨64, _⟩ => ⟨S_, .f32⟩
  | .hbm, ⟨65, _⟩ => ⟨S256, .f32⟩
  | .hbm, ⟨66, _⟩ => ⟨S100352x256, .f32⟩
  | .hbm, ⟨67, _⟩ => ⟨S256x256, .f32⟩
  | .hbm, ⟨68, _⟩ => ⟨S256x1, .f32⟩
  | .hbm, ⟨69, _⟩ => ⟨S1x256, .f32⟩
  | .hbm, ⟨70, _⟩ => ⟨S256x256, .f32⟩
  | .hbm, ⟨71, _⟩ => ⟨S256x256, .f32⟩
  | .hbm, ⟨72, _⟩ => ⟨S256x256, .f32⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S_, .f32⟩
  | .hbm, ⟨78, _⟩ => ⟨S256x256, .f32⟩
  | .hbm, ⟨79, _⟩ => ⟨S256x256, .f32⟩
  | .hbm, ⟨80, _⟩ => ⟨S_, .f32⟩
  | .hbm, ⟨81, _⟩ => ⟨S256x256, .f32⟩
  | .hbm, ⟨82, _⟩ => ⟨S256x256, .f32⟩
  | .hbm, ⟨83, _⟩ => ⟨S256x256, .f32⟩
  | .hbm, ⟨84, _⟩ => ⟨S_, .f32⟩
  | .hbm, ⟨85, _⟩ => ⟨S256x256, .f32⟩
  | .hbm, ⟨86, _⟩ => ⟨S256x256, .f32⟩
  | .hbm, ⟨87, _⟩ => ⟨S256x256, .f32⟩
  | .hbm, ⟨88, _⟩ => ⟨S256x256, .f32⟩
  | .hbm, ⟨89, _⟩ => ⟨S_, .f32⟩
  | .hbm, ⟨90, _⟩ => ⟨S256x256, .f32⟩
  | .hbm, ⟨91, _⟩ => ⟨S256x256, .f32⟩
  | .hbm, ⟨92, _⟩ => ⟨S256x256, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S256x512x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_11 : Ref sig .tc := ⟨.hbm, 61, rfl⟩
abbrev main_v47 : Ref sig .tc := ⟨.hbm, 62, rfl⟩
abbrev main_v48 : Ref sig .tc := ⟨.hbm, 63, rfl⟩
abbrev main_cst_12 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_v61 : Ref sig .tc := ⟨.hbm, 79, rfl⟩
abbrev main_cst_15 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_16 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_17 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_18 : Ref sig .tc := ⟨.hbm, 93, rfl⟩
abbrev main_v72 : Ref sig .tc := ⟨.hbm, 94, rfl⟩
abbrev main_cst_19 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  shapeCasts_S256x512x14x14_S256x100352 : S256x512x14x14.ShapeCasts S256x100352
  reducesTo_S256x100352_S256_d1 : S256x100352.ReducesTo [1] S256
  h_S_ : 0 < S_.numel
  transposes_S256x100352_S100352x256_1_0 : S256x100352.Transposes [1, 0] S100352x256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  reducesTo_S256x256_S_d0_1 : S256x256.ReducesTo [0, 1] S_
  dot_S256x100352_S100352x256_S256x256_1_0_0_1_n_n_wf : DotDims.WF S256x100352 S100352x256 S256x256 [1] [0] [0] [1] [] []

variable [Facts₀]

def dot_S256x100352_S100352x256_S256x256_1_0_0_1_n_n : DotDims S256x100352 S100352x256 S256x256 where
  lhsContracting := [1]
  rhsContracting := [0]
  lhsNonContracting := [0]
  rhsNonContracting := [1]
  lhsBatch := []
  rhsBatch := []
  wf := dot_S256x100352_S100352x256_S256x256_1_0_0_1_n_n_wf

class Facts : Prop extends Facts₀ where

variable [Facts]
-- ==== Proof.FrameBits.Kit.lean ====
/-
  The program's run around its one pallas_call, for any float instance: the buffers as the region finds them
  (after the four host operations that flatten and round the two arguments), the eighty-one host operations after
  the region (they write only their own result buffers, never an array of the pipeline and never an argument), each
  window's block at a grid point, the one branch condition of the body (the inner grid coordinate is zero: the points
  0 and 4 of the eight), and the staging memrefs the body is called with.
-/
import proofs.«116301_j71829033058812_2_alg».proof.Proof.Gen.Kernel.Launch
import proofs.«116301_j71829033058812_2_alg».proof.Proof.Gen.Kernel.Skeleton
import proofs.«116301_j71829033058812_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 40000000 in  -- the chain's tail is a list of eighty-one operations
/-- @main is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each operation after the region writes one buffer, its own result, which is none of the seven arrays of the
    pipeline (the two rounded inputs and the five partial results). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes the first argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- From a run ending with every buffer outside the pipeline as the later host operations leave it: the two
    arguments, which no window stages and no host operation writes, end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch condition -/

/-- The body resets its outputs where the inner grid coordinate is zero. -/
abbrev cond0_0 (i : grid0.Coords) : Prop := (Scalar.cmpi .ne (Scalar.extui (Scalar.cmpi .eq (BitVec.ofNat 32 (i 1).val) 0#32)) 0#32) = 1#1
/-- That is at the points 0 and 4 of the eight. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of output window 2, through which its contents are stated. -/
abbrev VO0_2 : View sig .tc .vmem S1x256x256 .f32 := (Memref.whole cc0_stg2_0 : Memref sig .tc .vmem S1x256x256 .f32).view
/-- One staging buffer of output window 3, through which its contents are stated. -/
abbrev VO0_3 : View sig .tc .vmem S1x256x256 .f32 := (Memref.whole cc0_stg3_0 : Memref sig .tc .vmem S1x256x256 .f32).view
/-- One staging buffer of output window 4, through which its contents are stated. -/
abbrev VO0_4 : View sig .tc .vmem S1x256x256 .f32 := (Memref.whole cc0_stg4_0 : Memref sig .tc .vmem S1x256x256 .f32).view
/-- One staging buffer of output window 5, through which its contents are stated. -/
abbrev VO0_5 : View sig .tc .vmem S1x1x256 .f32 := (Memref.whole cc0_stg5_0 : Memref sig .tc .vmem S1x1x256 .f32).view
/-- One staging buffer of output window 6, through which its contents are stated. -/
abbrev VO0_6 : View sig .tc .vmem S1x1x256 .f32 := (Memref.whole cc0_stg6_0 : Memref sig .tc .vmem S1x1x256 .f32).view
abbrev ms0_0 (t : Fin cfg0.N) : Memref sig .tc .vmem S256x12544 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x12544 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)

end Cert.Kernel.Fr

end
-- ==== Proof.FrameBits.RunReset.lean ====
/-
  The body at a point where the inner grid coordinate is zero: it overwrites the five output buffers with zeros
  and then adds this chunk's three products and two row sums onto them; nothing it leaves depends on what the
  output buffers held before. The pieces each output buffer ends with are found by running the body.
-/
import proofs.«116301_j71829033058812_2_alg».proof.Proof.FrameBits.Kit

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the two inputs at their contents, the five outputs at anything — the body runs to a
    state holding the inputs as they were and each output buffer with its pieces written. -/
noncomputable def kernelRun0_A (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) :
    Σ' (L2 : List (View.Piece (Elt F) S1x256x256 .f32)) (L3 : List (View.Piece (Elt F) S1x256x256 .f32)) (L4 : List (View.Piece (Elt F) S1x256x256 .f32)) (L5 : List (View.Piece (Elt F) S1x1x256 .f32)), { L6 : List (View.Piece (Elt F) S1x1x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__mmd_gram_kernel i arg2 harg2 arg3 harg3 arg4 harg4 arg5 harg5 arg6 harg6 arg7 harg7 arg8 harg8) K } := by
  refine ⟨?_, ?_, ?_, ?_, ?_, fun E K => ?run⟩
  case run =>
    simp only [cc0__mmd_gram_kernel_eq_skeleton]; unfold cc0__mmd_gram_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

end Cert.Kernel.Fr

end
-- ==== Proof.FrameBits.RunAdd.lean ====
/-
  The body at a point where the inner grid coordinate is not zero: it adds this chunk's three products and two row
  sums onto what the five output buffers hold, which is what the point before left there.
-/
import proofs.«116301_j71829033058812_2_alg».proof.Proof.FrameBits.RunReset

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the two inputs at their contents, the five outputs at their running contents — the body
    runs to a state holding the inputs as they were and each output buffer with its pieces written. -/
noncomputable def kernelRun0_B (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16)
    (xo2 : Vec F S1x256x256 .f32) (xo3 : Vec F S1x256x256 .f32) (xo4 : Vec F S1x256x256 .f32) (xo5 : Vec F S1x1x256 .f32) (xo6 : Vec F S1x1x256 .f32) :
    Σ' (L2 : List (View.Piece (Elt F) S1x256x256 .f32)) (L3 : List (View.Piece (Elt F) S1x256x256 .f32)) (L4 : List (View.Piece (Elt F) S1x256x256 .f32)) (L5 : List (View.Piece (Elt F) S1x1x256 .f32)), { L6 : List (View.Piece (Elt F) S1x1x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ owns (c : Thread nD τ) arg7 fullShare xo5 ∗ owns (c : Thread nD τ) arg8 fullShare xo6
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__mmd_gram_kernel i arg2 harg2 arg3 harg3 arg4 harg4 arg5 harg5 arg6 harg6 arg7 harg7 arg8 harg8) K } := by
  refine ⟨?_, ?_, ?_, ?_, ?_, fun E K => ?run⟩
  case run =>
    simp only [cc0__mmd_gram_kernel_eq_skeleton]; unfold cc0__mmd_gram_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1
    obtain rfl := harg4.eq_unread hf2; obtain rfl := harg5.eq_unread hf3; obtain rfl := harg6.eq_unread hf4
    obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

end Cert.Kernel.Fr

end
-- ==== Proof.FrameBits.Frame.lean ====
/-
  The frame of the program, for any float instance. Per case of the body's one branch: the pieces each of the five
  output buffers ends with tile it, so the buffer's contents are those pieces read back. Point by point: at the
  points 0 and 4 (inner coordinate zero) the outputs are the reset case's contents; at every other point they are
  the adding case's contents over what the point before left, because an output's buffer is written back only at
  the points 3 and 7 and keeps its contents in between. With that as proof data the body meets its obligation at
  every point, the program runs, and the two arguments end unchanged.
-/
import proofs.«116301_j71829033058812_2_alg».proof.Proof.FrameBits.RunAdd

-- membership in a rectangle of these extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output buffer -/

theorem cover0_A_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x256x256.Idx) :
    ∃ pc ∈ (kernelRun0_A c i arg2 harg2 arg3 harg3 arg4 harg4 arg5 harg5 arg6 harg6 arg7 harg7 arg8 harg8 hc0 x0 x1).1, y ∈ pc.1.set :=
  View.cover_of_tiledL (kernelRun0_A c i arg2 harg2 arg3 harg3 arg4 harg4 arg5 harg5 arg6 harg6 arg7 harg7 arg8 harg8 hc0 x0 x1).1 S1x256x256.size (by sl_kernel_rfl) y

/-- What the reset case leaves in output window 2's buffer: its pieces read back. -/
def out0_A_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x256x256 .f32 :=
  VO0_2.read (Elt F) (VO0_2.writes (Elt F) VO0_2.junk (kernelRun0_A c i arg2 harg2 arg3 harg3 arg4 harg4 arg5 harg5 arg6 harg6 arg7 harg7 arg8 harg8 hc0 x0 x1).1)

theorem cover0_B_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).1 S1x256x256.size (by sl_kernel_rfl) y

/-- What the adding case leaves in output window 2's buffer: its pieces read back. -/
def out0_B_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x256x256 .f32 :=
  VO0_2.read (Elt F) (VO0_2.writes (Elt F) VO0_2.junk (kernelRun0_B c i arg2 harg2 arg3 harg3 arg4 harg4 arg5 harg5 arg6 harg6 arg7 harg7 arg8 harg8 hc0 x0 x1 xo2 xo3 xo4 xo5 xo6).1)

theorem cover0_A_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x256x256.Idx) :
    ∃ pc ∈ (kernelRun0_A c i arg2 harg2 arg3 harg3 arg4 harg4 arg5 harg5 arg6 harg6 arg7 harg7 arg8 harg8 hc0 x0 x1).2.1, y ∈ pc.1.set :=
  View.cover_of_tiledL (kernelRun0_A c i arg2 harg2 arg3 harg3 arg4 harg4 arg5 harg5 arg6 harg6 arg7 harg7 arg8 harg8 hc0 x0 x1).2.1 S1x256x256.size (by sl_kernel_rfl) y

/-- What the reset case leaves in output window 3's buffer: its pieces read back. -/
def out0_A_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x256x256 .f32 :=
  VO0_3.read (Elt F) (VO0_3.writes (Elt F) VO0_3.junk (kernelRun0_A c i arg2 harg2 arg3 harg3 arg4 harg4 arg5 harg5 arg6 harg6 arg7 harg7 arg8 harg8 hc0 x0 x1).2.1)

theorem cover0_B_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.1 S1x256x256.size (by sl_kernel_rfl) y

/-- What the adding case leaves in output window 3's buffer: its pieces read back. -/
def out0_B_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x256x256 .f32 :=
  VO0_3.read (Elt F) (VO0_3.writes (Elt F) VO0_3.junk (kernelRun0_B c i arg2 harg2 arg3 harg3 arg4 harg4 arg5 harg5 arg6 harg6 arg7 harg7 arg8 harg8 hc0 x0 x1 xo2 xo3 xo4 xo5 xo6).2.1)

theorem cover0_A_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x256x256.Idx) :
    ∃ pc ∈ (kernelRun0_A c i arg2 harg2 arg3 harg3 arg4 harg4 arg5 harg5 arg6 harg6 arg7 harg7 arg8 harg8 hc0 x0 x1).2.2.1, y ∈ pc.1.set :=
  View.cover_of_tiledL (kernelRun0_A c i arg2 harg2 arg3 harg3 arg4 harg4 arg5 harg5 arg6 harg6 arg7 harg7 arg8 harg8 hc0 x0 x1).2.2.1 S1x256x256.size (by sl_kernel_rfl) y

/-- What the reset case leaves in output window 4's buffer: its pieces read back. -/
def out0_A_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x256x256 .f32 :=
  VO0_4.read (Elt F) (VO0_4.writes (Elt F) VO0_4.junk (kernelRun0_A c i arg2 harg2 arg3 harg3 arg4 harg4 arg5 harg5 arg6 harg6 arg7 harg7 arg8 harg8 hc0 x0 x1).2.2.1)

theorem cover0_B_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.1 S1x256x256.size (by sl_kernel_rfl) y

/-- What the adding case leaves in output window 4's buffer: its pieces read back. -/
def out0_B_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x256x256 .f32 :=
  VO0_4.read (Elt F) (VO0_4.writes (Elt F) VO0_4.junk (kernelRun0_B c i arg2 harg2 arg3 harg3 arg4 harg4 arg5 harg5 arg6 harg6 arg7 harg7 arg8 harg8 hc0 x0 x1 xo2 xo3 xo4 xo5 xo6).2.2.1)

theorem cover0_A_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x1x256.Idx) :
    ∃ pc ∈ (kernelRun0_A c i arg2 harg2 arg3 harg3 arg4 harg4 arg5 harg5 arg6 harg6 arg7 harg7 arg8 harg8 hc0 x0 x1).2.2.2.1, y ∈ pc.1.set :=
  View.cover_of_tiledL (kernelRun0_A c i arg2 harg2 arg3 harg3 arg4 harg4 arg5 harg5 arg6 harg6 arg7 harg7 arg8 harg8 hc0 x0 x1).2.2.2.1 S1x1x256.size (by sl_kernel_rfl) y

/-- What the reset case leaves in output window 5's buffer: its pieces read back. -/
def out0_A_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x1x256 .f32 :=
  VO0_5.read (Elt F) (VO0_5.writes (Elt F) VO0_5.junk (kernelRun0_A c i arg2 harg2 arg3 harg3 arg4 harg4 arg5 harg5 arg6 harg6 arg7 harg7 arg8 harg8 hc0 x0 x1).2.2.2.1)

theorem cover0_B_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x1x256.Idx) :
    ∃ pc ∈ (kernelRun0_B c i arg2 harg2 arg3 harg3 arg4 harg4 arg5 harg5 arg6 harg6 arg7 harg7 arg8 harg8 hc0 x0 x1 xo2 xo3 xo4 xo5 xo6).2.2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.2.1 S1x1x256.size (by sl_kernel_rfl) y

/-- What the adding case leaves in output window 5's buffer: its pieces read back. -/
def out0_B_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x1x256 .f32 :=
  VO0_5.read (Elt F) (VO0_5.writes (Elt F) VO0_5.junk (kernelRun0_B c i arg2 harg2 arg3 harg3 arg4 harg4 arg5 harg5 arg6 harg6 arg7 harg7 arg8 harg8 hc0 x0 x1 xo2 xo3 xo4 xo5 xo6).2.2.2.1)

theorem cover0_A_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x1x256.Idx) :
    ∃ pc ∈ (kernelRun0_A c i arg2 harg2 arg3 harg3 arg4 harg4 arg5 harg5 arg6 harg6 arg7 harg7 arg8 harg8 hc0 x0 x1).2.2.2.2.1, y ∈ pc.1.set :=
  View.cover_of_tiledL (kernelRun0_A c i arg2 harg2 arg3 harg3 arg4 harg4 arg5 harg5 arg6 harg6 arg7 harg7 arg8 harg8 hc0 x0 x1).2.2.2.2.1 S1x1x256.size (by sl_kernel_rfl) y

/-- What the reset case leaves in output window 6's buffer: its pieces read back. -/
def out0_A_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x1x256 .f32 :=
  VO0_6.read (Elt F) (VO0_6.writes (Elt F) VO0_6.junk (kernelRun0_A c i arg2 harg2 arg3 harg3 arg4 harg4 arg5 harg5 arg6 harg6 arg7 harg7 arg8 harg8 hc0 x0 x1).2.2.2.2.1)

theorem cover0_B_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x1x256.Idx) :
    ∃ pc ∈ (kernelRun0_B c i arg2 harg2 arg3 harg3 arg4 harg4 arg5 harg5 arg6 harg6 arg7 harg7 arg8 harg8 hc0 x0 x1 xo2 xo3 xo4 xo5 xo6).2.2.2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.2.2.1 S1x1x256.size (by sl_kernel_rfl) y

/-- What the adding case leaves in output window 6's buffer: its pieces read back. -/
def out0_B_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x1x256 .f32 :=
  VO0_6.read (Elt F) (VO0_6.writes (Elt F) VO0_6.junk (kernelRun0_B c i arg2 harg2 arg3 harg3 arg4 harg4 arg5 harg5 arg6 harg6 arg7 harg7 arg8 harg8 hc0 x0 x1 xo2 xo3 xo4 xo5 xo6).2.2.2.2.1)

/-! ## What the outputs hold after each point -/

/-- The accumulation: what the five output buffers hold after the body at position n — the reset case's contents
    where n is a multiple of four, else the adding case's over what position n - 1 left. -/
def outsAt0 (c : Dev nD) : (n : ℕ) → n < cfg0.N → Vec F S1x256x256 .f32 × Vec F S1x256x256 .f32 × Vec F S1x256x256 .f32 × Vec F S1x1x256 .f32 × Vec F S1x1x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- At a point of the reset case. -/
theorem outsAt0_A (c : Dev nD) (t : Fin cfg0.N) (h0 : t.val % 4 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t)) := by
  obtain ⟨n, hn⟩ := t
  cases n with
  | zero => exact rfl
  | succ n => exact (dif_pos h0).trans rfl

/-- At a point of the adding case: over what the point before left. -/
theorem outsAt0_B (c : Dev nD) (t : Fin cfg0.N) (h0 : ¬t.val % 4 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point t each input's buffer at its block and the outputs'
    at the accumulation; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
    | ⟨6, _⟩ => (outsAt0 m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]
theorem after0_6 (c : Dev nD) (t : Fin cfg0.N) : (dats m 0 c).after 6 t = (outsAt0 m c t.val t.isLt).2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of the adding case output window 2's buffer holds what the body left at the point before: the buffer
    was not written back in between (that happens after the points 3 and 7 only). -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dats]
/-- At a point of the adding case output window 3's buffer holds what the body left at the point before: the buffer
    was not written back in between (that happens after the points 3 and 7 only). -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]
/-- At a point of the adding case output window 4's buffer holds what the body left at the point before: the buffer
    was not written back in between (that happens after the points 3 and 7 only). -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]
/-- At a point of the adding case output window 5's buffer holds what the body left at the point before: the buffer
    was not written back in between (that happens after the points 3 and 7 only). -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]
/-- At a point of the adding case output window 6's buffer holds what the body left at the point before: the buffer
    was not written back in between (that happens after the points 3 and 7 only). -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2.2.2 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4000000 in
/-- The body at any point: the inputs' buffers hold their blocks; the point's position says which case it is in; in
    the adding case the outputs hold what the point before left; so that case's run applies, and what it leaves is
    the accumulation at this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 8 := lt_of_lt_of_eq t.isLt (show cfg0.N = 8 from N_0)
  by_cases h0 : t.val % 4 = 0
  · rw [outsAt0_A m c t h0]
    (try dsimp only)
    unfold out0_A_2 out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _)
  · rw [outsAt0_B m c t h0]
    simp only [before0_2_B m c t h0, before0_3_B m c t h0, before0_4_B m c t h0, before0_5_B m c t h0, before0_6_B m c t h0]
    (try dsimp only)
    unfold out0_B_2 out0_B_3 out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in  -- the tail is a list of eighty-one operations
set_option backward.isDefEq.respectTransparency.types false in
/-- Every weakly fair execution of @main terminates, with every array of the pipeline at what the proof data gives and
    every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.FrameIdeal.Kit.lean ====
/-
  The program's run around its one pallas_call, for any float instance: the buffers as the region finds them
  (after the four host operations that flatten and round the two arguments), the eighty-one host operations after
  the region (they write only their own result buffers, never an array of the pipeline and never an argument), each
  window's block at a grid point, the one branch condition of the body (the inner grid coordinate is zero: the points
  0 and 4 of the eight), and the staging memrefs the body is called with.
-/
import proofs.«116301_j71829033058812_2_alg».proof.Proof.Gen.KernelIdeal.Launch
import proofs.«116301_j71829033058812_2_alg».proof.Proof.Gen.KernelIdeal.Skeleton
import proofs.«116301_j71829033058812_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: after the host operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 40000000 in  -- the chain's tail is a list of eighty-one operations
/-- @main is: the host operations before the region, the region, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the pipeline's arrays and buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each operation after the region writes one buffer, its own result, which is none of the seven arrays of the
    pipeline (the two rounded inputs and the five partial results). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes the first argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes the first argument: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the second. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of the second input. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- From a run ending with every buffer outside the pipeline as the later host operations leave it: the two
    arguments, which no window stages and no host operation writes, end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's branch condition -/

/-- The body resets its outputs where the inner grid coordinate is zero. -/
abbrev cond0_0 (i : grid0.Coords) : Prop := (Scalar.cmpi .ne (Scalar.extui (Scalar.cmpi .eq (BitVec.ofNat 32 (i 1).val) 0#32)) 0#32) = 1#1
/-- That is at the points 0 and 4 of the eight. -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging memrefs -/

/-- One staging buffer of output window 2, through which its contents are stated. -/
abbrev VO0_2 : View sig .tc .vmem S1x256x256 .f32 := (Memref.whole cc0_stg2_0 : Memref sig .tc .vmem S1x256x256 .f32).view
/-- One staging buffer of output window 3, through which its contents are stated. -/
abbrev VO0_3 : View sig .tc .vmem S1x256x256 .f32 := (Memref.whole cc0_stg3_0 : Memref sig .tc .vmem S1x256x256 .f32).view
/-- One staging buffer of output window 4, through which its contents are stated. -/
abbrev VO0_4 : View sig .tc .vmem S1x256x256 .f32 := (Memref.whole cc0_stg4_0 : Memref sig .tc .vmem S1x256x256 .f32).view
/-- One staging buffer of output window 5, through which its contents are stated. -/
abbrev VO0_5 : View sig .tc .vmem S1x1x256 .f32 := (Memref.whole cc0_stg5_0 : Memref sig .tc .vmem S1x1x256 .f32).view
/-- One staging buffer of output window 6, through which its contents are stated. -/
abbrev VO0_6 : View sig .tc .vmem S1x1x256 .f32 := (Memref.whole cc0_stg6_0 : Memref sig .tc .vmem S1x1x256 .f32).view
abbrev ms0_0 (t : Fin cfg0.N) : Memref sig .tc .vmem S256x12544 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x12544 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)

end Cert.KernelIdeal.Fr

end
-- ==== Proof.FrameIdeal.RunReset.lean ====
/-
  The body at a point where the inner grid coordinate is zero: it overwrites the five output buffers with zeros
  and then adds this chunk's three products and two row sums onto them; nothing it leaves depends on what the
  output buffers held before. The pieces each output buffer ends with are found by running the body.
-/
import proofs.«116301_j71829033058812_2_alg».proof.Proof.FrameIdeal.Kit

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the two inputs at their contents, the five outputs at anything — the body runs to a
    state holding the inputs as they were and each output buffer with its pieces written. -/
noncomputable def kernelRun0_A (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) :
    Σ' (L2 : List (View.Piece (Elt F) S1x256x256 .f32)) (L3 : List (View.Piece (Elt F) S1x256x256 .f32)) (L4 : List (View.Piece (Elt F) S1x256x256 .f32)) (L5 : List (View.Piece (Elt F) S1x1x256 .f32)), { L6 : List (View.Piece (Elt F) S1x1x256 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__mmd_gram_kernel i arg2 harg2 arg3 harg3 arg4 harg4 arg5 harg5 arg6 harg6 arg7 harg7 arg8 harg8) K } := by
  refine ⟨?_, ?_, ?_, ?_, ?_, fun E K => ?run⟩
  case run =>
    simp only [cc0__mmd_gram_kernel_eq_skeleton]; unfold cc0__mmd_gram_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Fr

end
-- ==== Proof.FrameIdeal.RunAdd.lean ====
/-
  The body at a point where the inner grid coordinate is not zero: it adds this chunk's three products and two row
  sums onto what the five output buffers hold, which is what the point before left there.
-/
import proofs.«116301_j71829033058812_2_alg».proof.Proof.FrameIdeal.RunReset

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole staging memrefs — the two inputs at their contents, the five outputs at their running contents — the body
    runs to a state holding the inputs as they were and each output buffer with its pieces written. -/
noncomputable def kernelRun0_B (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16)
    (xo2 : Vec F S1x256x256 .f32) (xo3 : Vec F S1x256x256 .f32) (xo4 : Vec F S1x256x256 .f32) (xo5 : Vec F S1x1x256 .f32) (xo6 : Vec F S1x1x256 .f32) :
    Σ' (L2 : List (View.Piece (Elt F) S1x256x256 .f32)) (L3 : List (View.Piece (Elt F) S1x256x256 .f32)) (L4 : List (View.Piece (Elt F) S1x256x256 .f32)) (L5 : List (View.Piece (Elt F) S1x1x256 .f32)), { L6 : List (View.Piece (Elt F) S1x1x256 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3 ∗ owns (c : Thread nD τ) arg6 fullShare xo4
            ∗ owns (c : Thread nD τ) arg7 fullShare xo5 ∗ owns (c : Thread nD τ) arg8 fullShare xo6
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__mmd_gram_kernel i arg2 harg2 arg3 harg3 arg4 harg4 arg5 harg5 arg6 harg6 arg7 harg7 arg8 harg8) K } := by
  refine ⟨?_, ?_, ?_, ?_, ?_, fun E K => ?run⟩
  case run =>
    simp only [cc0__mmd_gram_kernel_eq_skeleton]; unfold cc0__mmd_gram_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1
    obtain rfl := harg4.eq_unread hf2; obtain rfl := harg5.eq_unread hf3; obtain rfl := harg6.eq_unread hf4
    obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [H5]; · iexists _; iexact H5
    iexists _; iexact H6

end Cert.KernelIdeal.Fr

end
-- ==== Proof.FrameIdeal.Frame.lean ====
/-
  The frame of the program, for any float instance. Per case of the body's one branch: the pieces each of the five
  output buffers ends with tile it, so the buffer's contents are those pieces read back. Point by point: at the
  points 0 and 4 (inner coordinate zero) the outputs are the reset case's contents; at every other point they are
  the adding case's contents over what the point before left, because an output's buffer is written back only at
  the points 3 and 7 and keeps its contents in between. With that as proof data the body meets its obligation at
  every point, the program runs, and the two arguments end unchanged.
-/
import proofs.«116301_j71829033058812_2_alg».proof.Proof.FrameIdeal.RunAdd

-- membership in a rectangle of these extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in each output buffer -/

theorem cover0_A_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x256x256.Idx) :
    ∃ pc ∈ (kernelRun0_A c i arg2 harg2 arg3 harg3 arg4 harg4 arg5 harg5 arg6 harg6 arg7 harg7 arg8 harg8 hc0 x0 x1).1, y ∈ pc.1.set :=
  View.cover_of_tiledL (kernelRun0_A c i arg2 harg2 arg3 harg3 arg4 harg4 arg5 harg5 arg6 harg6 arg7 harg7 arg8 harg8 hc0 x0 x1).1 S1x256x256.size (by sl_kernel_rfl) y

/-- What the reset case leaves in output window 2's buffer: its pieces read back. -/
def out0_A_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x256x256 .f32 :=
  VO0_2.read (Elt F) (VO0_2.writes (Elt F) VO0_2.junk (kernelRun0_A c i arg2 harg2 arg3 harg3 arg4 harg4 arg5 harg5 arg6 harg6 arg7 harg7 arg8 harg8 hc0 x0 x1).1)

theorem cover0_B_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).1 S1x256x256.size (by sl_kernel_rfl) y

/-- What the adding case leaves in output window 2's buffer: its pieces read back. -/
def out0_B_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x256x256 .f32 :=
  VO0_2.read (Elt F) (VO0_2.writes (Elt F) VO0_2.junk (kernelRun0_B c i arg2 harg2 arg3 harg3 arg4 harg4 arg5 harg5 arg6 harg6 arg7 harg7 arg8 harg8 hc0 x0 x1 xo2 xo3 xo4 xo5 xo6).1)

theorem cover0_A_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x256x256.Idx) :
    ∃ pc ∈ (kernelRun0_A c i arg2 harg2 arg3 harg3 arg4 harg4 arg5 harg5 arg6 harg6 arg7 harg7 arg8 harg8 hc0 x0 x1).2.1, y ∈ pc.1.set :=
  View.cover_of_tiledL (kernelRun0_A c i arg2 harg2 arg3 harg3 arg4 harg4 arg5 harg5 arg6 harg6 arg7 harg7 arg8 harg8 hc0 x0 x1).2.1 S1x256x256.size (by sl_kernel_rfl) y

/-- What the reset case leaves in output window 3's buffer: its pieces read back. -/
def out0_A_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x256x256 .f32 :=
  VO0_3.read (Elt F) (VO0_3.writes (Elt F) VO0_3.junk (kernelRun0_A c i arg2 harg2 arg3 harg3 arg4 harg4 arg5 harg5 arg6 harg6 arg7 harg7 arg8 harg8 hc0 x0 x1).2.1)

theorem cover0_B_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.1 S1x256x256.size (by sl_kernel_rfl) y

/-- What the adding case leaves in output window 3's buffer: its pieces read back. -/
def out0_B_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x256x256 .f32 :=
  VO0_3.read (Elt F) (VO0_3.writes (Elt F) VO0_3.junk (kernelRun0_B c i arg2 harg2 arg3 harg3 arg4 harg4 arg5 harg5 arg6 harg6 arg7 harg7 arg8 harg8 hc0 x0 x1 xo2 xo3 xo4 xo5 xo6).2.1)

theorem cover0_A_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x256x256.Idx) :
    ∃ pc ∈ (kernelRun0_A c i arg2 harg2 arg3 harg3 arg4 harg4 arg5 harg5 arg6 harg6 arg7 harg7 arg8 harg8 hc0 x0 x1).2.2.1, y ∈ pc.1.set :=
  View.cover_of_tiledL (kernelRun0_A c i arg2 harg2 arg3 harg3 arg4 harg4 arg5 harg5 arg6 harg6 arg7 harg7 arg8 harg8 hc0 x0 x1).2.2.1 S1x256x256.size (by sl_kernel_rfl) y

/-- What the reset case leaves in output window 4's buffer: its pieces read back. -/
def out0_A_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x256x256 .f32 :=
  VO0_4.read (Elt F) (VO0_4.writes (Elt F) VO0_4.junk (kernelRun0_A c i arg2 harg2 arg3 harg3 arg4 harg4 arg5 harg5 arg6 harg6 arg7 harg7 arg8 harg8 hc0 x0 x1).2.2.1)

theorem cover0_B_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x256x256.Idx) :
    ∃ pc ∈ (kernelRun0_B c i arg2 harg2 arg3 harg3 arg4 harg4 arg5 harg5 arg6 harg6 arg7 harg7 arg8 harg8 hc0 x0 x1 xo2 xo3 xo4 xo5 xo6).2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.1 S1x256x256.size (by sl_kernel_rfl) y

/-- What the adding case leaves in output window 4's buffer: its pieces read back. -/
def out0_B_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x256x256 .f32 :=
  VO0_4.read (Elt F) (VO0_4.writes (Elt F) VO0_4.junk (kernelRun0_B c i arg2 harg2 arg3 harg3 arg4 harg4 arg5 harg5 arg6 harg6 arg7 harg7 arg8 harg8 hc0 x0 x1 xo2 xo3 xo4 xo5 xo6).2.2.1)

theorem cover0_A_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x1x256.Idx) :
    ∃ pc ∈ (kernelRun0_A c i arg2 harg2 arg3 harg3 arg4 harg4 arg5 harg5 arg6 harg6 arg7 harg7 arg8 harg8 hc0 x0 x1).2.2.2.1, y ∈ pc.1.set :=
  View.cover_of_tiledL (kernelRun0_A c i arg2 harg2 arg3 harg3 arg4 harg4 arg5 harg5 arg6 harg6 arg7 harg7 arg8 harg8 hc0 x0 x1).2.2.2.1 S1x1x256.size (by sl_kernel_rfl) y

/-- What the reset case leaves in output window 5's buffer: its pieces read back. -/
def out0_A_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x1x256 .f32 :=
  VO0_5.read (Elt F) (VO0_5.writes (Elt F) VO0_5.junk (kernelRun0_A c i arg2 harg2 arg3 harg3 arg4 harg4 arg5 harg5 arg6 harg6 arg7 harg7 arg8 harg8 hc0 x0 x1).2.2.2.1)

theorem cover0_B_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x1x256.Idx) :
    ∃ pc ∈ (kernelRun0_B c i arg2 harg2 arg3 harg3 arg4 harg4 arg5 harg5 arg6 harg6 arg7 harg7 arg8 harg8 hc0 x0 x1 xo2 xo3 xo4 xo5 xo6).2.2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.2.1 S1x1x256.size (by sl_kernel_rfl) y

/-- What the adding case leaves in output window 5's buffer: its pieces read back. -/
def out0_B_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x1x256 .f32 :=
  VO0_5.read (Elt F) (VO0_5.writes (Elt F) VO0_5.junk (kernelRun0_B c i arg2 harg2 arg3 harg3 arg4 harg4 arg5 harg5 arg6 harg6 arg7 harg7 arg8 harg8 hc0 x0 x1 xo2 xo3 xo4 xo5 xo6).2.2.2.1)

theorem cover0_A_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) (y : S1x1x256.Idx) :
    ∃ pc ∈ (kernelRun0_A c i arg2 harg2 arg3 harg3 arg4 harg4 arg5 harg5 arg6 harg6 arg7 harg7 arg8 harg8 hc0 x0 x1).2.2.2.2.1, y ∈ pc.1.set :=
  View.cover_of_tiledL (kernelRun0_A c i arg2 harg2 arg3 harg3 arg4 harg4 arg5 harg5 arg6 harg6 arg7 harg7 arg8 harg8 hc0 x0 x1).2.2.2.2.1 S1x1x256.size (by sl_kernel_rfl) y

/-- What the reset case leaves in output window 6's buffer: its pieces read back. -/
def out0_A_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) : Vec F S1x1x256 .f32 :=
  VO0_6.read (Elt F) (VO0_6.writes (Elt F) VO0_6.junk (kernelRun0_A c i arg2 harg2 arg3 harg3 arg4 harg4 arg5 harg5 arg6 harg6 arg7 harg7 arg8 harg8 hc0 x0 x1).2.2.2.2.1)

theorem cover0_B_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) (y : S1x1x256.Idx) :
    ∃ pc ∈ (kernelRun0_B c i arg2 harg2 arg3 harg3 arg4 harg4 arg5 harg5 arg6 harg6 arg7 harg7 arg8 harg8 hc0 x0 x1 xo2 xo3 xo4 xo5 xo6).2.2.2.2.1, y ∈ pc.1.set :=
  View.cover_of_tiledL (kernelRun0_B c i arg2 harg2 arg3 harg3 arg4 harg4 arg5 harg5 arg6 harg6 arg7 harg7 arg8 harg8 hc0 x0 x1 xo2 xo3 xo4 xo5 xo6).2.2.2.2.1 S1x1x256.size (by sl_kernel_rfl) y

/-- What the adding case leaves in output window 6's buffer: its pieces read back. -/
def out0_B_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) : Vec F S1x1x256 .f32 :=
  VO0_6.read (Elt F) (VO0_6.writes (Elt F) VO0_6.junk (kernelRun0_B c i arg2 harg2 arg3 harg3 arg4 harg4 arg5 harg5 arg6 harg6 arg7 harg7 arg8 harg8 hc0 x0 x1 xo2 xo3 xo4 xo5 xo6).2.2.2.2.1)

/-! ## What the outputs hold after each point -/

/-- The accumulation: what the five output buffers hold after the body at position n — the reset case's contents
    where n is a multiple of four, else the adding case's over what position n - 1 left. -/
def outsAt0 (c : Dev nD) : (n : ℕ) → n < cfg0.N → Vec F S1x256x256 .f32 × Vec F S1x256x256 .f32 × Vec F S1x256x256 .f32 × Vec F S1x1x256 .f32 × Vec F S1x1x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩),
       out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩))
  | n + 1, hn =>
    if h0 : (n + 1) % 4 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩),
       out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2,
       out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

/-- At a point of the reset case. -/
theorem outsAt0_A (c : Dev nD) (t : Fin cfg0.N) (h0 : t.val % 4 = 0) :
    outsAt0 m c t.val t.isLt = (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t),
       out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t)) := by
  obtain ⟨n, hn⟩ := t
  cases n with
  | zero => exact rfl
  | succ n => exact (dif_pos h0).trans rfl

/-- At a point of the adding case: over what the point before left. -/
theorem outsAt0_B (c : Dev nD) (t : Fin cfg0.N) (h0 : ¬t.val % 4 = 0) :
    outsAt0 m c t.val t.isLt = (out0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
       out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point t each input's buffer at its block and the outputs'
    at the accumulation; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
    | ⟨4, _⟩ => (outsAt0 m c t.val t.isLt).2.2.1
    | ⟨5, _⟩ => (outsAt0 m c t.val t.isLt).2.2.2.1
    | ⟨6, _⟩ => (outsAt0 m c t.val t.isLt).2.2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2.1 := by dsimp only [dats]
theorem after0_4 (c : Dev nD) (t : Fin cfg0.N) : (dats m 0 c).after 4 t = (outsAt0 m c t.val t.isLt).2.2.1 := by dsimp only [dats]
theorem after0_5 (c : Dev nD) (t : Fin cfg0.N) : (dats m 0 c).after 5 t = (outsAt0 m c t.val t.isLt).2.2.2.1 := by dsimp only [dats]
theorem after0_6 (c : Dev nD) (t : Fin cfg0.N) : (dats m 0 c).after 6 t = (outsAt0 m c t.val t.isLt).2.2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- At a point of the adding case output window 2's buffer holds what the body left at the point before: the buffer
    was not written back in between (that happens after the points 3 and 7 only). -/
theorem before0_2_B (c : Dev nD) (t : Fin cfg0.N) (h0 : ¬t.val % 4 = 0) (d) :
    (dats m 0 c).before 2 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dats]
/-- At a point of the adding case output window 3's buffer holds what the body left at the point before: the buffer
    was not written back in between (that happens after the points 3 and 7 only). -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 3 rfl t (by omega) (Bool.eq_false_iff.mpr fun h => by have := (flush0_3 _).mp h; dsimp only at this; omega)
    (fun _ => rfl) (fun _ _ => rfl)]
  dsimp only [dats]
/-- At a point of the adding case output window 4's buffer holds what the body left at the point before: the buffer
    was not written back in between (that happens after the points 3 and 7 only). -/
theorem before0_4_B (c : Dev nD) (t : Fin cfg0.N) (h0 : ¬t.val % 4 = 0) (d) :
    (dats m 0 c).before 4 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 4 rfl t (by omega) (Bool.eq_false_iff.mpr fun h => by have := (flush0_4 _).mp h; dsimp only at this; omega)
    (fun _ => rfl) (fun _ _ => rfl)]
  dsimp only [dats]
/-- At a point of the adding case output window 5's buffer holds what the body left at the point before: the buffer
    was not written back in between (that happens after the points 3 and 7 only). -/
theorem before0_5_B (c : Dev nD) (t : Fin cfg0.N) (h0 : ¬t.val % 4 = 0) (d) :
    (dats m 0 c).before 5 t d = (outsAt0 m c (t.val - 1) (Nat.lt_of_le_of_lt (Nat.sub_le _ _) t.isLt)).2.2.2.1 := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dats]
/-- At a point of the adding case output window 6's buffer holds what the body left at the point before: the buffer
    was not written back in between (that happens after the points 3 and 7 only). -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)).2.2.2.2 := by
  have hN : t.val < 8 := lt_of_lt_of_eq t.isLt (show cfg0.N = 8 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 4000000 in
/-- The body at any point: the inputs' buffers hold their blocks; the point's position says which case it is in; in
    the adding case the outputs hold what the point before left; so that case's run applies, and what it leaves is
    the accumulation at this point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 8 := lt_of_lt_of_eq t.isLt (show cfg0.N = 8 from N_0)
  by_cases h0 : t.val % 4 = 0
  · rw [outsAt0_A m c t h0]
    (try dsimp only)
    unfold out0_A_2 out0_A_3 out0_A_4 out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t)).2.2.2.2.2 Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _ _)
    isplitl [H5]
    · unfold owns; iexists _; isplitr
      swap; · iexact H5
      ipureintro; exact View.read_writes_of_cover _ _ _ _ _ (cover0_A_5 c _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _)
  · rw [outsAt0_B m c t h0]
    simp only [before0_2_B m c t h0, before0_3_B m c t h0, before0_4_B m c t h0, before0_5_B m c t h0, before0_6_B m c t h0]
    (try dsimp only)
    unfold out0_B_2 out0_B_3 out0_B_4 out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) _ _ _ _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, ⟨%e2, H2⟩, ⟨%e3, H3⟩, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _ _ _ _ _ _ _ _ _ _)
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _)
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in  -- the tail is a list of eighty-one operations
set_option backward.isDefEq.respectTransparency.types false in
/-- Every weakly fair execution of @main terminates, with every array of the pipeline at what the proof data gives and
    every other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.Epilogue.lean ====
/-
  What both programs do after the three Gram matrices and the squared row norms are known.

  For a pair of arrays with squared row norms a, b and Gram matrix g, the Gaussian kernel matrix is
      gauss a b g (p, q) = exp( (−( max(a p + b q − 2 · g (p, q), 0) / 100352 )) / 2 ),
  and the statistic is the mean over the 256 × 256 entries of  k(X,X) + k(Y,Y) − 2 · k(X,Y):
      mean3 exx eyy exy = ( Σ_{p,q} (exx + eyy − 2 · exy)(p, q) ) / 65536.
  The text is the reference's own chain of host operations, operand by operand and in its order
  (the literal words are 2, 0, 100352, 2 and, in the mean, 2, 0, 65536 as f32 bit patterns), so a
  program whose tail is the same chain over its own five arrays has this function of them as its
  value by unfolding alone. Nothing here opens an operation.
-/
import proofs.«116301_j71829033058812_2_alg».proof.Proof.Gen.ReferenceIdeal
import Idealize.ShloMosaic.PureOps.Ideal

noncomputable section

namespace Cert.Mmd

open Cert.ReferenceIdeal Cert.ReferenceIdeal.Gen Idealize.ShloMosaic

/-- The Gaussian kernel matrix of a pair of arrays from the squared row norms `a` (rows), `b` (columns) and
    the Gram matrix `g`: exp of minus half the mean clamped squared distance. -/
def gauss (a b : FVec Ideal S256 .f32) (g : FVec Ideal S256x256 .f32) : FVec Ideal S256x256 .f32 :=
  Host.exp (F := Ideal)
    (Host.divf (F := Ideal)
      (Host.negf (F := Ideal)
        (Host.divf (F := Ideal)
          (maximumf
            (subf
              (addf
                (broadcastInDim S256x256 ![0, 1] bcast_S256x1_S256x256_0_1 (broadcastInDim S256x1 ![0] bcast_S256_S256x1_0 a))
                (broadcastInDim S256x256 ![0, 1] bcast_S1x256_S256x256_0_1 (broadcastInDim S1x256 ![1] bcast_S256_S1x256_1 b)))
              (mulf (broadcastInDim S256x256 ![] bcast_S_S256x256 (constant (F := Ideal) S_ .f32 0x40000000#32)) g))
            (broadcastInDim S256x256 ![] bcast_S_S256x256 (constant (F := Ideal) S_ .f32 0x00000000#32)))
          (broadcastInDim S256x256 ![] bcast_S_S256x256 (constant (F := Ideal) S_ .f32 0x47C40000#32))))
      (broadcastInDim S256x256 ![] bcast_S_S256x256 (constant (F := Ideal) S_ .f32 0x40000000#32)))

/-- The mean over all 256 × 256 entries of  exx + eyy − 2 · exy. -/
def mean3 (exx eyy exy : FVec Ideal S256x256 .f32) : FVec Ideal S_ .f32 :=
  Host.divf (F := Ideal)
    (Host.reduceAdd (F := Ideal)
      (subf (addf exx eyy)
        (mulf (broadcastInDim S256x256 ![] bcast_S_S256x256 (constant (F := Ideal) S_ .f32 0x40000000#32)) exy))
      (constant (F := Ideal) S_ .f32 0x00000000#32) reducesTo_S256x256_S_d0_1 h_S_)
    (constant (F := Ideal) S_ .f32 0x47800000#32)

/-- The whole shared tail: the three Gaussian kernel matrices, then the mean. The first triple is the pair
    (X, X), the second (Y, Y), the third (X, Y); in each, the row norms, the column norms, the Gram matrix. -/
def epilogue (ax bx : FVec Ideal S256 .f32) (gx : FVec Ideal S256x256 .f32)
    (ay by' : FVec Ideal S256 .f32) (gy : FVec Ideal S256x256 .f32)
    (az bz : FVec Ideal S256 .f32) (gz : FVec Ideal S256x256 .f32) : FVec Ideal S_ .f32 :=
  mean3 (gauss ax bx gx) (gauss ay by' gy) (gauss az bz gz)

end Cert.Mmd

end
-- ==== Proof.KernelTail.lean ====
/-
  The kernel program after its kernel call.

  The program's last 81 host operations read five arrays the kernel call wrote — three stacks of two partial Gram
  matrices and two stacks of two partial vectors of squared row norms —, add the two layers of each (a sum over the
  leading axis, started from the word of 0; the two vectors are then flattened from [1, 256] to [256]), and from there
  on are the shared tail, operand by operand. So, whatever the buffers hold when the stretch starts, the result buffer
  ends at the shared tail of those five sums.
-/
import proofs.«116301_j71829033058812_2_alg».proof.Proof.Gen.KernelIdeal.Launch
import proofs.«116301_j71829033058812_2_alg».proof.Proof.Epilogue
import Idealize.ShloMosaic.Lib.StableHlo.Run

noncomputable section

namespace Cert.KernelIdeal.Tail

open Cert.KernelIdeal Cert.KernelIdeal.Gen Idealize.ShloMosaic Idealize.ShloMosaic.TcCoe Idealize.SL.Sem
  Idealize.ShloMosaic.StableHlo

/-- The Gram matrix of (X, X): the two partial matrices added. -/
def g0 (W : Valuation τ sig (Elt Ideal)) : FVec Ideal S256x256 .f32 :=
  Host.reduceAdd (F := Ideal) (W (Proc.devRef .tc main_v4_0)) (constant (F := Ideal) S_ .f32 0x00000000#32)
    reducesTo_S2x256x256_S256x256_d0 h_S_

/-- The Gram matrix of (Y, Y): the two partial matrices added. -/
def g1 (W : Valuation τ sig (Elt Ideal)) : FVec Ideal S256x256 .f32 :=
  Host.reduceAdd (F := Ideal) (W (Proc.devRef .tc main_v4_1)) (constant (F := Ideal) S_ .f32 0x00000000#32)
    reducesTo_S2x256x256_S256x256_d0 h_S_

/-- The Gram matrix of (X, Y): the two partial matrices added. -/
def g2 (W : Valuation τ sig (Elt Ideal)) : FVec Ideal S256x256 .f32 :=
  Host.reduceAdd (F := Ideal) (W (Proc.devRef .tc main_v4_2)) (constant (F := Ideal) S_ .f32 0x00000000#32)
    reducesTo_S2x256x256_S256x256_d0 h_S_

/-- The squared row norms of X: the two partial vectors added, flattened. -/
def s3 (W : Valuation τ sig (Elt Ideal)) : FVec Ideal S256 .f32 :=
  shapeCast S256
    (Host.reduceAdd (F := Ideal) (W (Proc.devRef .tc main_v4_3)) (constant (F := Ideal) S_ .f32 0x00000000#32)
      reducesTo_S2x1x256_S1x256_d0 h_S_)
    shapeCasts_S1x256_S256

/-- The squared row norms of Y: the two partial vectors added, flattened. -/
def s4 (W : Valuation τ sig (Elt Ideal)) : FVec Ideal S256 .f32 :=
  shapeCast S256
    (Host.reduceAdd (F := Ideal) (W (Proc.devRef .tc main_v4_4)) (constant (F := Ideal) S_ .f32 0x00000000#32)
      reducesTo_S2x1x256_S1x256_d0 h_S_)
    shapeCasts_S1x256_S256

set_option maxRecDepth 8192 in
set_option maxHeartbeats 40000000 in
/-- From any contents, the stretch leaves the result buffer at the shared tail of the five sums. -/
theorem tail_eq (W : Valuation τ sig (Elt Ideal)) :
    after (hostOps1 (F := Ideal)) W (Proc.devRef .tc main_v65)
      = Cert.Mmd.epilogue (s3 W) (s3 W) (g0 W) (s4 W) (s4 W) (g1 W) (s3 W) (s4 W) (g2 W) := by
  after_results_simp
  unfold Cert.Mmd.epilogue Cert.Mmd.mean3 Cert.Mmd.gauss g0 g1 g2 s3 s4
  rfl

end Cert.KernelIdeal.Tail

end
-- ==== Proof.Spec.lean ====
/-
  The two quantities both programs are built from, for a pair of [256, 100352] arrays of extended reals:
  the Gram entry  gram A B p q = Σ_k A(p,k) · B(q,k)  and the squared norm of a row  sqn A p = Σ_k A(p,k)².
  Everything after them (the Gaussian of the clamped squared distance, the mean) is the same text in both
  programs and is carried as one function, never opened.
-/
import Idealize.ShloMosaic.Lib.ValueIdx

noncomputable section

open scoped BigOperators

namespace Cert.Mmd

open Idealize.ShloMosaic Idealize.ShloMosaic.ValueIdx

/-- A [256, 100352] array of extended reals. -/
abbrev Flat : Type := FVec Ideal (⟨2, ![256, 100352]⟩ : Shape) .f32

/-- The Gram entry (p, q) of two flat arrays: the sum over the long axis of the products of rows p and q. -/
def gram (A B : Flat) (p q : Fin 256) : EReal := ∑ k : Fin 100352, A (ix2 p k) * B (ix2 q k)

/-- The squared Euclidean norm of row p. -/
def sqn (A : Flat) (p : Fin 256) : EReal := ∑ k : Fin 100352, A (ix2 p k) * A (ix2 p k)

/-- The squared norm of a row is its Gram entry with itself. -/
theorem sqn_eq_gram (A : Flat) (p : Fin 256) : sqn A p = gram A A p p := rfl

end Cert.Mmd

end
-- ==== Proof.SumChunks.lean ====
/-
  The long axis in chunks.

  A sum over the 100352 positions of a row is the sum, over 2 halves, over the 4 chunks of a half, over the 12544
  positions of a chunk, of the term at position (c · 4 + kk) · 12544 + j. Addition of extended reals is commutative
  and associative, so nothing about finiteness is needed: the statement holds in any commutative additive monoid.
  The Gram entries and the squared row norms are such sums.
-/
import Mathlib.Algebra.BigOperators.Fin
import proofs.«116301_j71829033058812_2_alg».proof.Proof.Spec

noncomputable section

open scoped BigOperators

namespace Cert.Mmd

open Idealize.ShloMosaic Idealize.ShloMosaic.ValueIdx

/-- Position j of chunk i of width b lies inside a · b positions. -/
theorem chunk_lt {a b i j : ℕ} (hi : i < a) (hj : j < b) : i * b + j < a * b :=
  calc i * b + j < i * b + b := Nat.add_lt_add_left hj _
    _ = (i + 1) * b := (Nat.succ_mul i b).symm
    _ ≤ a * b := Nat.mul_le_mul_right b hi

/-- A sum over a · b positions is the sum over the a chunks of the sums over the b positions of each chunk. -/
theorem sum_fin_split {M : Type*} [AddCommMonoid M] {n : ℕ} (a b : ℕ) (h : n = a * b) (f : Fin n → M) :
    ∑ k : Fin n, f k = ∑ i : Fin a, ∑ j : Fin b, f ⟨i.val * b + j.val, h ▸ chunk_lt i.isLt j.isLt⟩ := by
  subst h
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm, Nat.add_comm]

/-- The long axis as 2 halves of 4 chunks of 12544 positions. -/
theorem sum_chunks {M : Type*} [AddCommMonoid M] (f : Fin 100352 → M) :
    ∑ k : Fin 100352, f k
      = ∑ c : Fin 2, ∑ kk : Fin 4, ∑ j : Fin 12544,
          f ⟨(c.val * 4 + kk.val) * 12544 + j.val, by have := c.isLt; have := kk.isLt; have := j.isLt; omega⟩ := by
  rw [sum_fin_split 8 12544 (by norm_num) f,
    sum_fin_split 2 4 (by norm_num) (fun i : Fin 8 => ∑ j : Fin 12544, f ⟨i.val * 12544 + j.val, _⟩)]

/-- A Gram entry, chunk by chunk. -/
theorem gram_chunks (A B : Flat) (p q : Fin 256) :
    gram A B p q
      = ∑ c : Fin 2, ∑ kk : Fin 4, ∑ j : Fin 12544,
          A (ix2 p ⟨(c.val * 4 + kk.val) * 12544 + j.val, by have := c.isLt; have := kk.isLt; have := j.isLt; omega⟩)
            * B (ix2 q ⟨(c.val * 4 + kk.val) * 12544 + j.val, by have := c.isLt; have := kk.isLt; have := j.isLt; omega⟩) :=
  sum_chunks fun k => A (ix2 p k) * B (ix2 q k)

/-- A squared row norm, chunk by chunk. -/
theorem sqn_chunks (A : Flat) (p : Fin 256) :
    sqn A p
      = ∑ c : Fin 2, ∑ kk : Fin 4, ∑ j : Fin 12544,
          A (ix2 p ⟨(c.val * 4 + kk.val) * 12544 + j.val, by have := c.isLt; have := kk.isLt; have := j.isLt; omega⟩)
            * A (ix2 p ⟨(c.val * 4 + kk.val) * 12544 + j.val, by have := c.isLt; have := kk.isLt; have := j.isLt; omega⟩) :=
  sum_chunks fun k => A (ix2 p k) * A (ix2 p k)

/-- Position j of chunk kk of half cc of the long axis. -/
def chunkIdx (cc : Fin 2) (kk : Fin 4) (j : Fin 12544) : Fin 100352 :=
  ⟨(cc.val * 4 + kk.val) * 12544 + j.val, by have := cc.isLt; have := kk.isLt; have := j.isLt; omega⟩

/-- A sum over the long axis, chunk by chunk, over the named positions. -/
theorem sum_chunkIdx {M : Type*} [AddCommMonoid M] (f : Fin 100352 → M) :
    ∑ k : Fin 100352, f k = ∑ cc : Fin 2, ∑ kk : Fin 4, ∑ j : Fin 12544, f (chunkIdx cc kk j) :=
  sum_chunks f

/-- A Gram entry, chunk by chunk, over the named positions. -/
theorem gram_chunkIdx (A B : Flat) (p q : Fin 256) :
    gram A B p q
      = ∑ cc : Fin 2, ∑ kk : Fin 4, ∑ j : Fin 12544, A (ix2 p (chunkIdx cc kk j)) * B (ix2 q (chunkIdx cc kk j)) :=
  gram_chunks A B p q

/-- A squared row norm, chunk by chunk, over the named positions. -/
theorem sqn_chunkIdx (A : Flat) (p : Fin 256) :
    sqn A p
      = ∑ cc : Fin 2, ∑ kk : Fin 4, ∑ j : Fin 12544, A (ix2 p (chunkIdx cc kk j)) * A (ix2 p (chunkIdx cc kk j)) :=
  sqn_chunks A p

end Cert.Mmd

end
-- ==== Proof.LibLeadSum.lean ====
/-
  The host's sum over the leading axis of a rank-3 array, read at an index.

  Summing an [a, b, c] array over its first axis from an initial value gives a [b, c] array whose entry (p, q) is
  the initial value plus the sum over k of the entries (k, p, q) — at the exact values, where the host's sum is
  the plain sum whatever its order.
-/
import Idealize.ShloMosaic.PureOps.Ideal.Laws
import Idealize.ShloMosaic.Lib.ValueIdx

noncomputable section

namespace Cert.LibLeadSum

open Idealize.ShloMosaic Idealize.ShloMosaic.ValueIdx

/-- GENERAL LEMMA. A host float sum over axis 0 of an [a, b, c] array, at (p, q). The second shape fact names the
    index the sum reads; at literal shapes `by decide` gives it. -/
theorem host_sum_lead_apply {a b c : ℕ} (x : FVec Ideal (⟨3, ![a, b, c]⟩ : Shape) .f32) (init : FVec Ideal (⟨0, ![]⟩ : Shape) .f32)
    (h' : (⟨3, ![a, b, c]⟩ : Shape).ReducesTo [0] ⟨2, ![b, c]⟩) (h : (⟨3, ![a, b, c]⟩ : Shape).Reduces [0] ⟨2, ![b, c]⟩)
    (hu : 0 < (⟨0, ![]⟩ : Shape).numel) (p : Fin b) (q : Fin c) :
    Host.reduceAdd x init h' hu (ix2 p q) = init ix0 + ∑ k : Fin a, x (ix3 k p q) := by
  show Ideal.hostReduceAdd h' x (init (Shape.Idx.first hu)) (ix2 p q) = _
  rw [Ideal.hostReduceAdd_single h' h]
  refine congrArg₂ (· + ·) (congrArg init (eq_ix0 _)) (Finset.sum_congr rfl fun k _ => congrArg x (funext fun ax => Fin.ext ?_))
  match ax with
  | ⟨0, _⟩ => rfl
  | ⟨1, _⟩ => rfl
  | ⟨2, _⟩ => rfl

end Cert.LibLeadSum

end
-- ==== Proof.KernelHostSums.lean ====
/-
  The host's sums over the two grid rows, and the cast of a one-row array to a vector, read at an index, at the
  exact values.

  The host adds the two [256, 256] blocks (and the two [1, 256] rows) that the kernel wrote for the two values of the
  outer grid coordinate: a sum over the leading axis of extent two, from the initial value zero. Read at an index, it
  is the entry of block 0 plus the entry of block 1.
-/
import proofs.«116301_j71829033058812_2_alg».proof.Proof.Gen.KernelIdeal
import proofs.«116301_j71829033058812_2_alg».proof.Proof.LibLeadSum
import Idealize.ShloMosaic.Lib.ValueLayout
import Idealize.ShloMosaic.PureOps.Ideal.Laws

noncomputable section

namespace Cert.KernelIdeal.HostSums

open Idealize.ShloMosaic Idealize.ShloMosaic.ValueIdx Cert.KernelIdeal
open Cert.KernelIdeal.Facts₀

/-- A sum over `Fin 2` is the term at 0 plus the term at 1. -/
theorem sum_two (f : Fin 2 → EReal) : ∑ k : Fin 2, f k = f 0 + f 1 := Fin.sum_univ_two f

/-- The initial value of the host's sums, the zero word, is the number zero at the exact values. -/
theorem init_zero : (constant (F := Ideal) S_ .f32 0x00000000#32) ix0 = 0 := Ideal.ofBits_zero_f32

/-- The host's sum of a [2, 256, 256] array over its leading axis, from zero, at `(p, q)`: block 0 there plus
    block 1 there. -/
theorem lead_sum_gram (x : FVec Ideal S2x256x256 .f32) (p q : Fin 256) :
    Host.reduceAdd (F := Ideal) x (constant S_ .f32 0x00000000#32) reducesTo_S2x256x256_S256x256_d0 h_S_ (ix2 p q)
      = x (ix3 (0 : Fin 2) p q) + x (ix3 (1 : Fin 2) p q) := by
  refine (Cert.LibLeadSum.host_sum_lead_apply x (constant S_ .f32 0x00000000#32)
    reducesTo_S2x256x256_S256x256_d0 (by decide) h_S_ p q).trans ?_
  rw [init_zero, zero_add]
  exact sum_two fun k => x (ix3 k p q)

/-- The host's sum of a [2, 1, 256] array over its leading axis, from zero, at `(0, p)`: row 0 there plus row 1
    there. -/
theorem lead_sum_row (x : FVec Ideal S2x1x256 .f32) (p : Fin 256) :
    Host.reduceAdd (F := Ideal) x (constant S_ .f32 0x00000000#32) reducesTo_S2x1x256_S1x256_d0 h_S_ (ix2 (0 : Fin 1) p)
      = x (ix3 (0 : Fin 2) (0 : Fin 1) p) + x (ix3 (1 : Fin 2) (0 : Fin 1) p) := by
  refine (Cert.LibLeadSum.host_sum_lead_apply x (constant S_ .f32 0x00000000#32)
    reducesTo_S2x1x256_S1x256_d0 (by decide) h_S_ (0 : Fin 1) p).trans ?_
  rw [init_zero, zero_add]
  exact sum_two fun k => x (ix3 k (0 : Fin 1) p)

/-- A [1, 256] array cast to a vector reads, at `p`, the array at `(0, p)`. -/
theorem row_to_vec (v : FVec Ideal S1x256 .f32) (p : Fin 256) :
    shapeCast S256 v shapeCasts_S1x256_S256 (ix1 p) = v (ix2 (0 : Fin 1) p) :=
  shapeCast_1a_a_apply v _ p

end Cert.KernelIdeal.HostSums

end
-- ==== Proof.KernelTailValue.lean ====
/-
  The kernel program's result from what its kernel call wrote.

  Suppose the five arrays the kernel call wrote hold, layer cc of each, the partial Gram entries and partial squared
  row norms of two flat arrays X and Y over half cc of the long axis (its 4 chunks of 12544 positions). Adding the two
  layers gives the whole sums — the Gram entries and the squared row norms of X and Y —, and the rest of the program is
  the shared tail: the result buffer ends at the shared tail of the norms and Gram entries of X and Y.
-/
import proofs.«116301_j71829033058812_2_alg».proof.Proof.KernelTail
import proofs.«116301_j71829033058812_2_alg».proof.Proof.SumChunks
import proofs.«116301_j71829033058812_2_alg».proof.Proof.KernelHostSums

noncomputable section

open scoped BigOperators

namespace Cert.KernelIdeal.Tail

open Cert.KernelIdeal Cert.KernelIdeal.Gen Idealize.ShloMosaic Idealize.ShloMosaic.TcCoe Idealize.SL.Sem
  Idealize.ShloMosaic.StableHlo Idealize.ShloMosaic.ValueIdx
open Cert.Mmd (Flat gram sqn chunkIdx gram_chunkIdx sqn_chunkIdx)

/-- Two layers of partial Gram entries, one per half of the long axis, add up to the Gram matrix. -/
theorem lead_sum_is_gram (V : FVec Ideal S2x256x256 .f32) (A B : Flat)
    (h : ∀ (cc : Fin 2) (p q : Fin 256), V (ix3 cc p q)
      = ∑ kk : Fin 4, ∑ j : Fin 12544, A (ix2 p (chunkIdx cc kk j)) * B (ix2 q (chunkIdx cc kk j))) :
    Host.reduceAdd (F := Ideal) V (constant (F := Ideal) S_ .f32 0x00000000#32) reducesTo_S2x256x256_S256x256_d0 h_S_
      = fun j => gram A B (j 0) (j 1) := by
  funext j
  obtain ⟨p, q, rfl⟩ : ∃ p q : Fin 256, j = ix2 p q := ⟨j 0, j 1, eq_ix2 j⟩
  show _ = gram A B p q
  rw [HostSums.lead_sum_gram, h, h, gram_chunkIdx, Fin.sum_univ_two]

/-- Two layers of partial squared row norms, one per half of the long axis, add up to the squared row norms. -/
theorem lead_sum_is_sqn (V : FVec Ideal S2x1x256 .f32) (A : Flat)
    (h : ∀ (cc : Fin 2) (p : Fin 256), V (ix3 cc (0 : Fin 1) p)
      = ∑ kk : Fin 4, ∑ j : Fin 12544, A (ix2 p (chunkIdx cc kk j)) * A (ix2 p (chunkIdx cc kk j))) :
    shapeCast S256 (Host.reduceAdd (F := Ideal) V (constant (F := Ideal) S_ .f32 0x00000000#32) reducesTo_S2x1x256_S1x256_d0 h_S_) shapeCasts_S1x256_S256
      = fun j => sqn A (j 0) := by
  funext j
  obtain ⟨p, rfl⟩ : ∃ p : Fin 256, j = ix1 p := ⟨j 0, eq_ix1 j⟩
  show _ = sqn A p
  rw [HostSums.row_to_vec, HostSums.lead_sum_row, h, h, sqn_chunkIdx, Fin.sum_univ_two]

/-- From contents in which the kernel call's five arrays hold the partial sums of X and Y, the stretch leaves the
    result buffer at the shared tail of the squared row norms and Gram entries of X and Y. -/
theorem tail_is_ref (W : Valuation τ sig (Elt Ideal)) (X Y : Flat)
    (h0 : ∀ (cc : Fin 2) (p q : Fin 256), (W (Proc.devRef .tc main_v4_0) : FVec Ideal S2x256x256 .f32) (ix3 cc p q)
      = ∑ kk : Fin 4, ∑ j : Fin 12544, X (ix2 p (chunkIdx cc kk j)) * X (ix2 q (chunkIdx cc kk j)))
    (h1 : ∀ (cc : Fin 2) (p q : Fin 256), (W (Proc.devRef .tc main_v4_1) : FVec Ideal S2x256x256 .f32) (ix3 cc p q)
      = ∑ kk : Fin 4, ∑ j : Fin 12544, Y (ix2 p (chunkIdx cc kk j)) * Y (ix2 q (chunkIdx cc kk j)))
    (h2 : ∀ (cc : Fin 2) (p q : Fin 256), (W (Proc.devRef .tc main_v4_2) : FVec Ideal S2x256x256 .f32) (ix3 cc p q)
      = ∑ kk : Fin 4, ∑ j : Fin 12544, X (ix2 p (chunkIdx cc kk j)) * Y (ix2 q (chunkIdx cc kk j)))
    (h3 : ∀ (cc : Fin 2) (p : Fin 256), (W (Proc.devRef .tc main_v4_3) : FVec Ideal S2x1x256 .f32) (ix3 cc (0 : Fin 1) p)
      = ∑ kk : Fin 4, ∑ j : Fin 12544, X (ix2 p (chunkIdx cc kk j)) * X (ix2 p (chunkIdx cc kk j)))
    (h4 : ∀ (cc : Fin 2) (p : Fin 256), (W (Proc.devRef .tc main_v4_4) : FVec Ideal S2x1x256 .f32) (ix3 cc (0 : Fin 1) p)
      = ∑ kk : Fin 4, ∑ j : Fin 12544, Y (ix2 p (chunkIdx cc kk j)) * Y (ix2 p (chunkIdx cc kk j))) :
    after (hostOps1 (F := Ideal)) W (Proc.devRef .tc main_v65)
      = Cert.Mmd.epilogue
          (fun j => sqn X (j 0)) (fun j => sqn X (j 0)) (fun j => gram X X (j 0) (j 1))
          (fun j => sqn Y (j 0)) (fun j => sqn Y (j 0)) (fun j => gram Y Y (j 0) (j 1))
          (fun j => sqn X (j 0)) (fun j => sqn Y (j 0)) (fun j => gram X Y (j 0) (j 1)) := by
  have e0 : g0 W = fun j => gram X X (j 0) (j 1) := lead_sum_is_gram _ X X h0
  have e1 : g1 W = fun j => gram Y Y (j 0) (j 1) := lead_sum_is_gram _ Y Y h1
  have e2 : g2 W = fun j => gram X Y (j 0) (j 1) := lead_sum_is_gram _ X Y h2
  have e3 : s3 W = fun j => sqn X (j 0) := lead_sum_is_sqn _ X h3
  have e4 : s4 W = fun j => sqn Y (j 0) := lead_sum_is_sqn _ Y h4
  rw [tail_eq, e0, e1, e2, e3, e4]

end Cert.KernelIdeal.Tail

end
-- ==== Proof.KernelBlocks.lean ====
/-
  The windows' blocks against their arrays, at the exact values.

  The two input windows cut the flat [256, 100352] arrays into eight column chunks of 12544 columns, one per grid
  point in grid order; the flat arrays are the two arguments reshaped (and rounded, which is the identity at the exact
  values). The five output windows cut their arrays into the two blocks of the leading axis, one per value of the
  outer grid coordinate, written back at the last point of each row of the grid; those two blocks cover the array.
-/
import proofs.«116301_j71829033058812_2_alg».proof.Proof.FrameIdeal.Kit
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ## The grid and the index maps, decided over the eight points -/

/-- There are eight grid points. -/
theorem t_lt (t : Fin cfg0.N) : t.val < 8 := lt_of_lt_of_eq t.isLt N_0

/-- A column of chunk `t` is a column of the flat array. -/
theorem col_lt (t : Fin cfg0.N) (j : Fin 12544) : t.val * 12544 + j.val < 100352 := by
  have := t_lt t; have := j.isLt; omega

/-- The outer grid coordinate of a point is its number divided by four. -/
theorem row_lt (t : Fin cfg0.N) : t.val / 4 < 2 := by
  have := t_lt t; omega

theorem idx_in0 : ∀ t : Fin cfg0.N, win0_0.index t (0 : Fin 2) = 0 ∧ win0_0.index t (1 : Fin 2) = t.val :=
  (by decide +kernel : ∀ t : Fin grid0.N, _)
theorem idx_in1 : ∀ t : Fin cfg0.N, win0_1.index t (0 : Fin 2) = 0 ∧ win0_1.index t (1 : Fin 2) = t.val :=
  (by decide +kernel : ∀ t : Fin grid0.N, _)
theorem idx_out2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)
theorem idx_out3 : ∀ t : Fin cfg0.N, win0_3.index t (0 : Fin 3) = t.val / 4 ∧ win0_3.index t (1 : Fin 3) = 0
    ∧ win0_3.index t (2 : Fin 3) = 0 :=
  (by decide +kernel : ∀ t : Fin grid0.N, _)
theorem idx_out4 : ∀ t : Fin cfg0.N, win0_4.index t (0 : Fin 3) = t.val / 4 ∧ win0_4.index t (1 : Fin 3) = 0
    ∧ win0_4.index t (2 : Fin 3) = 0 :=
  (by decide +kernel : ∀ t : Fin grid0.N, _)
theorem idx_out5 : ∀ t : Fin cfg0.N, win0_5.index t (0 : Fin 3) = t.val / 4 ∧ win0_5.index t (1 : Fin 3) = 0
    ∧ win0_5.index t (2 : Fin 3) = 0 :=
  (by decide +kernel : ∀ t : Fin grid0.N, _)
theorem idx_out6 : ∀ t : Fin cfg0.N, win0_6.index t (0 : Fin 3) = t.val / 4 ∧ win0_6.index t (1 : Fin 3) = 0
    ∧ win0_6.index t (2 : Fin 3) = 0 :=
  (by decide +kernel : ∀ t : Fin grid0.N, _)

/-! ## The input windows -/

/-- Block `t` of input window 0 is the columns `[t * 12544, (t + 1) * 12544)` of its flat array: at `(p, j)` it reads the
    array at `(p, t * 12544 + j)`. -/
theorem in0_block (t : Fin cfg0.N) (p : Fin 256) (j : Fin 12544) :
    Fr.iblk m c 0 t (ix2 p j)
      = (Fr.V m c main_v1 : S256x100352.Idx → Elt Ideal .bf16) (ix2 p (⟨t.val * 12544 + j.val, col_lt t j⟩ : Fin 100352)) := by
  obtain ⟨e0, e1⟩ := idx_in0 t
  show (Fr.V m c main_v1 : S256x100352.Idx → Elt Ideal .bf16) (((cfg0.win 0).blk t).view.emb (ix2 p j)) = _
  refine congrArg _ (funext fun a => Fin.ext ?_)
  match a with
  | ⟨0, _⟩ => show win0_0.index t (0 : Fin 2) * 256 + 1 * p.val = p.val; omega
  | ⟨1, _⟩ => show win0_0.index t (1 : Fin 2) * 12544 + 1 * j.val = t.val * 12544 + j.val; omega

/-- Block `t` of input window 1 is the columns `[t * 12544, (t + 1) * 12544)` of its flat array: at `(p, j)` it reads the
    array at `(p, t * 12544 + j)`. -/
theorem in1_block (t : Fin cfg0.N) (p : Fin 256) (j : Fin 12544) :
    Fr.iblk m c 1 t (ix2 p j)
      = (Fr.V m c main_v3 : S256x100352.Idx → Elt Ideal .bf16) (ix2 p (⟨t.val * 12544 + j.val, col_lt t j⟩ : Fin 100352)) := by
  obtain ⟨e0, e1⟩ := idx_in1 t
  show (Fr.V m c main_v3 : S256x100352.Idx → Elt Ideal .bf16) (((cfg0.win 1).blk t).view.emb (ix2 p j)) = _
  refine congrArg _ (funext fun a => Fin.ext ?_)
  match a with
  | ⟨0, _⟩ => show win0_1.index t (0 : Fin 2) * 256 + 1 * p.val = p.val; omega
  | ⟨1, _⟩ => show win0_1.index t (1 : Fin 2) * 12544 + 1 * j.val = t.val * 12544 + j.val; omega

/-! ## The flat arrays -/

/-- The first rounded input, as the region finds it, is the first argument flattened (the rounding to the narrower format is
    the identity at the exact values). -/
theorem V_main_v1 : (Fr.V m c main_v1 : S256x100352.Idx → Elt Ideal .bf16)
    = shapeCast S256x100352 (m ((c.tc : Thread nD τ).loc main_arg0) : S256x512x14x14.Idx → Elt Ideal .f32)
        shapeCasts_S256x512x14x14_S256x100352 := by
  show StableHlo.after hostOps0 (fun b => m (c, b)) (Proc.devRef .tc main_v1) = _
  after_results
  rfl

/-- The second rounded input, as the region finds it, is the second argument flattened (the rounding to the narrower format is
    the identity at the exact values). -/
theorem V_main_v3 : (Fr.V m c main_v3 : S256x100352.Idx → Elt Ideal .bf16)
    = shapeCast S256x100352 (m ((c.tc : Thread nD τ).loc main_arg1) : S256x512x14x14.Idx → Elt Ideal .f32)
        shapeCasts_S256x512x14x14_S256x100352 := by
  show StableHlo.after hostOps0 (fun b => m (c, b)) (Proc.devRef .tc main_v3) = _
  after_results
  rfl

/-! ## Output window 2 -/

/-- Block `t` of window 2's array, read at `(0, p, q)`, is the array at `(t / 4, p, q)`: the block index is the outer
    grid coordinate on the leading axis and zero on the others. -/
theorem out_block2 (G : FVec Ideal S2x256x256 .f32) (t : Fin cfg0.N) (p q : Fin 256) :
    ((cfg0.win 2).blk t).view.read (Elt Ideal) G (ix3 (0 : Fin 1) p q) = G (ix3 (⟨t.val / 4, row_lt t⟩ : Fin 2) p q) := by
  obtain ⟨e0, e1, e2⟩ := idx_out2 t
  show G (((cfg0.win 2).blk t).view.emb (ix3 (0 : Fin 1) p q)) = _
  refine congrArg G (funext fun a => Fin.ext ?_)
  match a with
  | ⟨0, _⟩ => show win0_2.index t (0 : Fin 3) * 1 + 1 * 0 = t.val / 4; omega
  | ⟨1, _⟩ => show win0_2.index t (1 : Fin 3) * 256 + 1 * p.val = p.val; omega
  | ⟨2, _⟩ => show win0_2.index t (2 : Fin 3) * 256 + 1 * q.val = q.val; omega

/-- An index of window 2's array is in point `t`'s block iff each coordinate is in the block's range on its axis. -/
theorem mem_blk2 (t : Fin cfg0.N) (i : S2x256x256.Idx) :
    i ∈ ((cfg0.win 2).blk t).view.set ↔ ∀ a : Fin 3, win0_2.index t a * S1x256x256.size a ≤ (i a).val
      ∧ (i a).val < win0_2.index t a * S1x256x256.size a + S1x256x256.size a := by
  show i ∈ ((View.whole main_v4_0).slice (win0_2.rect t)).set ↔ _
  rw [View.set_slice_whole, Rect.mem_set_unit]
  exact Iff.rfl

/-- Every index of window 2's array is in the block of a point that writes back: the last point of its row of the
    grid, `4 * (i 0) + 3`. -/
theorem out_cover2 (i : S2x256x256.Idx) :
    ∃ t : Fin cfg0.N, (cfg0.win 2).flush t = true ∧ i ∈ ((cfg0.win 2).blk t).view.set := by
  have h0 : (i 0).val < 2 := (i 0).isLt
  have h1 : (i 1).val < 256 := (i 1).isLt
  have h2 : (i 2).val < 256 := (i 2).isLt
  have hlt : 4 * (i 0).val + 3 < cfg0.N := lt_of_lt_of_eq (by omega : 4 * (i 0).val + 3 < 8) N_0.symm
  have ht : (⟨4 * (i 0).val + 3, hlt⟩ : Fin cfg0.N).val = 4 * (i 0).val + 3 := rfl
  generalize (⟨4 * (i 0).val + 3, hlt⟩ : Fin cfg0.N) = t at ht
  obtain ⟨e0, e1, e2⟩ := idx_out2 t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 256 ≤ (i 2).val ∧ (i 2).val < win0_2.index t (2 : Fin 3) * 256 + 256; omega

/-! ## Output window 3 -/

/-- Block `t` of window 3's array, read at `(0, p, q)`, is the array at `(t / 4, p, q)`: the block index is the outer
    grid coordinate on the leading axis and zero on the others. -/
theorem out_block3 (G : FVec Ideal S2x256x256 .f32) (t : Fin cfg0.N) (p q : Fin 256) :
    ((cfg0.win 3).blk t).view.read (Elt Ideal) G (ix3 (0 : Fin 1) p q) = G (ix3 (⟨t.val / 4, row_lt t⟩ : Fin 2) p q) := by
  obtain ⟨e0, e1, e2⟩ := idx_out3 t
  show G (((cfg0.win 3).blk t).view.emb (ix3 (0 : Fin 1) p q)) = _
  refine congrArg G (funext fun a => Fin.ext ?_)
  match a with
  | ⟨0, _⟩ => show win0_3.index t (0 : Fin 3) * 1 + 1 * 0 = t.val / 4; omega
  | ⟨1, _⟩ => show win0_3.index t (1 : Fin 3) * 256 + 1 * p.val = p.val; omega
  | ⟨2, _⟩ => show win0_3.index t (2 : Fin 3) * 256 + 1 * q.val = q.val; omega

/-- An index of window 3's array is in point `t`'s block iff each coordinate is in the block's range on its axis. -/
theorem mem_blk3 (t : Fin cfg0.N) (i : S2x256x256.Idx) :
    i ∈ ((cfg0.win 3).blk t).view.set ↔ ∀ a : Fin 3, win0_3.index t a * S1x256x256.size a ≤ (i a).val
      ∧ (i a).val < win0_3.index t a * S1x256x256.size a + S1x256x256.size a := by
  show i ∈ ((View.whole main_v4_1).slice (win0_3.rect t)).set ↔ _
  rw [View.set_slice_whole, Rect.mem_set_unit]
  exact Iff.rfl

/-- Every index of window 3's array is in the block of a point that writes back: the last point of its row of the
    grid, `4 * (i 0) + 3`. -/
theorem out_cover3 (i : S2x256x256.Idx) :
    ∃ t : Fin cfg0.N, (cfg0.win 3).flush t = true ∧ i ∈ ((cfg0.win 3).blk t).view.set := by
  have h0 : (i 0).val < 2 := (i 0).isLt
  have h1 : (i 1).val < 256 := (i 1).isLt
  have h2 : (i 2).val < 256 := (i 2).isLt
  have hlt : 4 * (i 0).val + 3 < cfg0.N := lt_of_lt_of_eq (by omega : 4 * (i 0).val + 3 < 8) N_0.symm
  have ht : (⟨4 * (i 0).val + 3, hlt⟩ : Fin cfg0.N).val = 4 * (i 0).val + 3 := rfl
  generalize (⟨4 * (i 0).val + 3, hlt⟩ : Fin cfg0.N) = t at ht
  obtain ⟨e0, e1, e2⟩ := idx_out3 t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-! ## Output window 4 -/

/-- Block `t` of window 4's array, read at `(0, p, q)`, is the array at `(t / 4, p, q)`: the block index is the outer
    grid coordinate on the leading axis and zero on the others. -/
theorem out_block4 (G : FVec Ideal S2x256x256 .f32) (t : Fin cfg0.N) (p q : Fin 256) :
    ((cfg0.win 4).blk t).view.read (Elt Ideal) G (ix3 (0 : Fin 1) p q) = G (ix3 (⟨t.val / 4, row_lt t⟩ : Fin 2) p q) := by
  obtain ⟨e0, e1, e2⟩ := idx_out4 t
  show G (((cfg0.win 4).blk t).view.emb (ix3 (0 : Fin 1) p q)) = _
  refine congrArg G (funext fun a => Fin.ext ?_)
  match a with
  | ⟨0, _⟩ => show win0_4.index t (0 : Fin 3) * 1 + 1 * 0 = t.val / 4; omega
  | ⟨1, _⟩ => show win0_4.index t (1 : Fin 3) * 256 + 1 * p.val = p.val; omega
  | ⟨2, _⟩ => show win0_4.index t (2 : Fin 3) * 256 + 1 * q.val = q.val; omega

/-- An index of window 4's array is in point `t`'s block iff each coordinate is in the block's range on its axis. -/
theorem mem_blk4 (t : Fin cfg0.N) (i : S2x256x256.Idx) :
    i ∈ ((cfg0.win 4).blk t).view.set ↔ ∀ a : Fin 3, win0_4.index t a * S1x256x256.size a ≤ (i a).val
      ∧ (i a).val < win0_4.index t a * S1x256x256.size a + S1x256x256.size a := by
  show i ∈ ((View.whole main_v4_2).slice (win0_4.rect t)).set ↔ _
  rw [View.set_slice_whole, Rect.mem_set_unit]
  exact Iff.rfl

/-- Every index of window 4's array is in the block of a point that writes back: the last point of its row of the
    grid, `4 * (i 0) + 3`. -/
theorem out_cover4 (i : S2x256x256.Idx) :
    ∃ t : Fin cfg0.N, (cfg0.win 4).flush t = true ∧ i ∈ ((cfg0.win 4).blk t).view.set := by
  have h0 : (i 0).val < 2 := (i 0).isLt
  have h1 : (i 1).val < 256 := (i 1).isLt
  have h2 : (i 2).val < 256 := (i 2).isLt
  have hlt : 4 * (i 0).val + 3 < cfg0.N := lt_of_lt_of_eq (by omega : 4 * (i 0).val + 3 < 8) N_0.symm
  have ht : (⟨4 * (i 0).val + 3, hlt⟩ : Fin cfg0.N).val = 4 * (i 0).val + 3 := rfl
  generalize (⟨4 * (i 0).val + 3, hlt⟩ : Fin cfg0.N) = t at ht
  obtain ⟨e0, e1, e2⟩ := idx_out4 t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 256 ≤ (i 2).val ∧ (i 2).val < win0_4.index t (2 : Fin 3) * 256 + 256; omega

/-! ## Output window 5 -/

/-- Block `t` of window 5's array, read at `(0, 0, p)`, is the array at `(t / 4, 0, p)`: the block index is the outer
    grid coordinate on the leading axis and zero on the others. -/
theorem out_block5 (G : FVec Ideal S2x1x256 .f32) (t : Fin cfg0.N) (p : Fin 256) :
    ((cfg0.win 5).blk t).view.read (Elt Ideal) G (ix3 (0 : Fin 1) (0 : Fin 1) p) = G (ix3 (⟨t.val / 4, row_lt t⟩ : Fin 2) (0 : Fin 1) p) := by
  obtain ⟨e0, e1, e2⟩ := idx_out5 t
  show G (((cfg0.win 5).blk t).view.emb (ix3 (0 : Fin 1) (0 : Fin 1) p)) = _
  refine congrArg G (funext fun a => Fin.ext ?_)
  match a with
  | ⟨0, _⟩ => show win0_5.index t (0 : Fin 3) * 1 + 1 * 0 = t.val / 4; omega
  | ⟨1, _⟩ => show win0_5.index t (1 : Fin 3) * 1 + 1 * 0 = 0; omega
  | ⟨2, _⟩ => show win0_5.index t (2 : Fin 3) * 256 + 1 * p.val = p.val; omega

/-- An index of window 5's array is in point `t`'s block iff each coordinate is in the block's range on its axis. -/
theorem mem_blk5 (t : Fin cfg0.N) (i : S2x1x256.Idx) :
    i ∈ ((cfg0.win 5).blk t).view.set ↔ ∀ a : Fin 3, win0_5.index t a * S1x1x256.size a ≤ (i a).val
      ∧ (i a).val < win0_5.index t a * S1x1x256.size a + S1x1x256.size a := by
  show i ∈ ((View.whole main_v4_3).slice (win0_5.rect t)).set ↔ _
  rw [View.set_slice_whole, Rect.mem_set_unit]
  exact Iff.rfl

/-- Every index of window 5's array is in the block of a point that writes back: the last point of its row of the
    grid, `4 * (i 0) + 3`. -/
theorem out_cover5 (i : S2x1x256.Idx) :
    ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 256 := (i 2).isLt
  have hlt : 4 * (i 0).val + 3 < cfg0.N := lt_of_lt_of_eq (by omega : 4 * (i 0).val + 3 < 8) N_0.symm
  have ht : (⟨4 * (i 0).val + 3, hlt⟩ : Fin cfg0.N).val = 4 * (i 0).val + 3 := rfl
  generalize (⟨4 * (i 0).val + 3, hlt⟩ : Fin cfg0.N) = t at ht
  obtain ⟨e0, e1, e2⟩ := idx_out5 t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 256 ≤ (i 2).val ∧ (i 2).val < win0_5.index t (2 : Fin 3) * 256 + 256; omega

/-! ## Output window 6 -/

/-- Block `t` of window 6's array, read at `(0, 0, p)`, is the array at `(t / 4, 0, p)`: the block index is the outer
    grid coordinate on the leading axis and zero on the others. -/
theorem out_block6 (G : FVec Ideal S2x1x256 .f32) (t : Fin cfg0.N) (p : Fin 256) :
    ((cfg0.win 6).blk t).view.read (Elt Ideal) G (ix3 (0 : Fin 1) (0 : Fin 1) p) = G (ix3 (⟨t.val / 4, row_lt t⟩ : Fin 2) (0 : Fin 1) p) := by
  obtain ⟨e0, e1, e2⟩ := idx_out6 t
  show G (((cfg0.win 6).blk t).view.emb (ix3 (0 : Fin 1) (0 : Fin 1) p)) = _
  refine congrArg G (funext fun a => Fin.ext ?_)
  match a with
  | ⟨0, _⟩ => show win0_6.index t (0 : Fin 3) * 1 + 1 * 0 = t.val / 4; omega
  | ⟨1, _⟩ => show win0_6.index t (1 : Fin 3) * 1 + 1 * 0 = 0; omega
  | ⟨2, _⟩ => show win0_6.index t (2 : Fin 3) * 256 + 1 * p.val = p.val; omega

/-- An index of window 6's array is in point `t`'s block iff each coordinate is in the block's range on its axis. -/
theorem mem_blk6 (t : Fin cfg0.N) (i : S2x1x256.Idx) :
    i ∈ ((cfg0.win 6).blk t).view.set ↔ ∀ a : Fin 3, win0_6.index t a * S1x1x256.size a ≤ (i a).val
      ∧ (i a).val < win0_6.index t a * S1x1x256.size a + S1x1x256.size a := by
  show i ∈ ((View.whole main_v4_4).slice (win0_6.rect t)).set ↔ _
  rw [View.set_slice_whole, Rect.mem_set_unit]
  exact Iff.rfl

/-- Every index of window 6's array is in the block of a point that writes back: the last point of its row of the
    grid, `4 * (i 0) + 3`. -/
theorem out_cover6 (i : S2x1x256.Idx) :
    ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 256 := (i 2).isLt
  have hlt : 4 * (i 0).val + 3 < cfg0.N := lt_of_lt_of_eq (by omega : 4 * (i 0).val + 3 < 8) N_0.symm
  have ht : (⟨4 * (i 0).val + 3, hlt⟩ : Fin cfg0.N).val = 4 * (i 0).val + 3 := rfl
  generalize (⟨4 * (i 0).val + 3, hlt⟩ : Fin cfg0.N) = t at ht
  obtain ⟨e0, e1, e2⟩ := idx_out6 t
  refine ⟨t, (flush0_6 t).mpr (by omega), ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 256 ≤ (i 2).val ∧ (i 2).val < win0_6.index t (2 : Fin 3) * 256 + 256; omega

end Cert.KernelIdeal.Blocks

end
-- ==== Proof.KernelResult.lean ====
/-
  The kernel program's result.

  When the program's run ends, every buffer outside the kernel call's windows holds what the host operations after
  the call leave from the contents at the call's exit: the contents at the call's entry, with the call's arrays at
  what the call wrote. If the five arrays the call wrote hold, layer by layer, the partial Gram entries and partial
  squared row norms of the two rounded inputs — which, at the exact values, are the two arguments flattened —, then
  the result buffer holds the shared tail of their squared row norms and Gram entries.
-/
import proofs.«116301_j71829033058812_2_alg».proof.Proof.FrameIdeal.Frame
import proofs.«116301_j71829033058812_2_alg».proof.Proof.KernelTailValue
import proofs.«116301_j71829033058812_2_alg».proof.Proof.KernelBlocks

noncomputable section

open scoped BigOperators

namespace Cert.KernelIdeal.Result

open Cert.KernelIdeal Cert.KernelIdeal.Gen Idealize.ShloMosaic Idealize.ShloMosaic.TcCoe Idealize.SL.Sem
  Idealize.ShloMosaic.StableHlo Idealize.ShloMosaic.ValueIdx
open Cert.Mmd (Flat gram sqn chunkIdx)

variable (m : (ℓ : Loc nD τ sig) → Buf (Elt Ideal) ℓ)

/-- The first rounded input as the kernel call finds it, as a flat array of extended reals. -/
abbrev kX (c : Dev nD) : Flat := (Fr.V m c main_v1 : S256x100352.Idx → Elt Ideal .bf16)

/-- The second rounded input as the kernel call finds it, as a flat array of extended reals. -/
abbrev kY (c : Dev nD) : Flat := (Fr.V m c main_v3 : S256x100352.Idx → Elt Ideal .bf16)

/-- The first rounded input is the first argument flattened. -/
theorem kX_eq (c : Dev nD) :
    kX m c = shapeCast S256x100352 (m ((c.tc : Thread nD τ).loc main_arg0)) shapeCasts_S256x512x14x14_S256x100352 :=
  Blocks.V_main_v1 m c

/-- The second rounded input is the second argument flattened. -/
theorem kY_eq (c : Dev nD) :
    kY m c = shapeCast S256x100352 (m ((c.tc : Thread nD τ).loc main_arg1)) shapeCasts_S256x512x14x14_S256x100352 :=
  Blocks.V_main_v3 m c

/-- The contents at the kernel call's exit: the contents at its entry, with its arrays at what it wrote. -/
abbrev exitW (c : Dev nD) : Valuation τ sig (Elt Ideal) :=
  Pipeline.withArrays spec0 c (Fr.V0 m c) fun w => (Fr.dats m 0 c).arrAt w cfg0.N

/-- At the reference of window w's array, the exit contents are what the call wrote there. -/
theorem exitW_arr (c : Dev nD) (w : Fin 7) :
    exitW m c (Proc.devRef .tc (Pipeline.arrRef spec0 w)) = (Fr.dats m 0 c).arrAt w cfg0.N :=
  Pipeline.withArrays_arr spec0 launch0.win.arr_inj c _ _ w

/-- From the five arrays' contents, layer by layer, to the result buffer's. -/
theorem kernel_result (c : Dev nD)
    (A2 : ∀ (cc : Fin 2) (p q : Fin 256), ((Fr.dats m 0 c).arrAt 2 cfg0.N : FVec Ideal S2x256x256 .f32) (ix3 cc p q)
      = ∑ kk : Fin 4, ∑ j : Fin 12544, kX m c (ix2 p (chunkIdx cc kk j)) * kX m c (ix2 q (chunkIdx cc kk j)))
    (A3 : ∀ (cc : Fin 2) (p q : Fin 256), ((Fr.dats m 0 c).arrAt 3 cfg0.N : FVec Ideal S2x256x256 .f32) (ix3 cc p q)
      = ∑ kk : Fin 4, ∑ j : Fin 12544, kY m c (ix2 p (chunkIdx cc kk j)) * kY m c (ix2 q (chunkIdx cc kk j)))
    (A4 : ∀ (cc : Fin 2) (p q : Fin 256), ((Fr.dats m 0 c).arrAt 4 cfg0.N : FVec Ideal S2x256x256 .f32) (ix3 cc p q)
      = ∑ kk : Fin 4, ∑ j : Fin 12544, kX m c (ix2 p (chunkIdx cc kk j)) * kY m c (ix2 q (chunkIdx cc kk j)))
    (A5 : ∀ (cc : Fin 2) (p : Fin 256), ((Fr.dats m 0 c).arrAt 5 cfg0.N : FVec Ideal S2x1x256 .f32) (ix3 cc (0 : Fin 1) p)
      = ∑ kk : Fin 4, ∑ j : Fin 12544, kX m c (ix2 p (chunkIdx cc kk j)) * kX m c (ix2 p (chunkIdx cc kk j)))
    (A6 : ∀ (cc : Fin 2) (p : Fin 256), ((Fr.dats m 0 c).arrAt 6 cfg0.N : FVec Ideal S2x1x256 .f32) (ix3 cc (0 : Fin 1) p)
      = ∑ kk : Fin 4, ∑ j : Fin 12544, kY m c (ix2 p (chunkIdx cc kk j)) * kY m c (ix2 p (chunkIdx cc kk j))) :
    Pipeline.afterTail₀ cfgs (Fr.dats m) 0 (Fr.V0 m) [hostOps1] c main_v65
      = Cert.Mmd.epilogue
          (fun j => sqn (kX m c) (j 0)) (fun j => sqn (kX m c) (j 0)) (fun j => gram (kX m c) (kX m c) (j 0) (j 1))
          (fun j => sqn (kY m c) (j 0)) (fun j => sqn (kY m c) (j 0)) (fun j => gram (kY m c) (kY m c) (j 0) (j 1))
          (fun j => sqn (kX m c) (j 0)) (fun j => sqn (kY m c) (j 0)) (fun j => gram (kX m c) (kY m c) (j 0) (j 1)) := by
  unfold Pipeline.afterTail₀
  simp only [List.flatten_cons, List.flatten_nil, List.append_nil]
  refine Tail.tail_is_ref (exitW m c) (kX m c) (kY m c) ?_ ?_ ?_ ?_ ?_
  · intro cc p q
    exact (congrFun (exitW_arr m c 2) (ix3 cc p q)).trans (A2 cc p q)
  · intro cc p q
    exact (congrFun (exitW_arr m c 3) (ix3 cc p q)).trans (A3 cc p q)
  · intro cc p q
    exact (congrFun (exitW_arr m c 4) (ix3 cc p q)).trans (A4 cc p q)
  · intro cc p
    exact (congrFun (exitW_arr m c 5) (ix3 cc (0 : Fin 1) p)).trans (A5 cc p)
  · intro cc p
    exact (congrFun (exitW_arr m c 6) (ix3 cc (0 : Fin 1) p)).trans (A6 cc p)

end Cert.KernelIdeal.Result

end
-- ==== Proof.KernelArraysOf.lean ====
/-
  What the kernel call's five result arrays hold at its exit, from what its body has accumulated at the last point of
  each row of the grid.

  The grid is 2 rows of 4 points; a result window's block at point t is layer t / 4 of its array, and it is written
  back at the last point of the row (t ≡ 3 mod 4), when the body has accumulated the row's 4 chunks. The two write-backs
  cover the array, so the array ends holding, layer cc, the sums over the 4 chunks of half cc of the long axis.
-/
import proofs.«116301_j71829033058812_2_alg».proof.Proof.KernelResult
import proofs.«116301_j71829033058812_2_alg».proof.Proof.KernelBlocks

noncomputable section

open scoped BigOperators

namespace Cert.KernelIdeal.Arrays

open Cert.KernelIdeal Cert.KernelIdeal.Gen Idealize.ShloMosaic Idealize.ShloMosaic.TcCoe Idealize.SL.Sem
  Idealize.ShloMosaic.ValueIdx
open Cert.Mmd (Flat chunkIdx)
open Cert.KernelIdeal.Result (kX kY)

variable (m : (ℓ : Loc nD τ sig) → Buf (Elt Ideal) ℓ) (c : Dev nD)

/-- Layer cc, entry (p, q): the sum over the 4 chunks of half cc of the products of rows p of A and q of B. -/
def gramLayers (A B : Flat) : FVec Ideal S2x256x256 .f32 := fun i =>
  ∑ kk : Fin 4, ∑ j : Fin 12544, A (ix2 (i 1) (chunkIdx (i 0) kk j)) * B (ix2 (i 2) (chunkIdx (i 0) kk j))

/-- Layer cc, entry (0, p): the sum over the 4 chunks of half cc of the squares of row p of A. -/
def sqnLayers (A : Flat) : FVec Ideal S2x1x256 .f32 := fun i =>
  ∑ kk : Fin 4, ∑ j : Fin 12544, A (ix2 (i 2) (chunkIdx (i 0) kk j)) * A (ix2 (i 2) (chunkIdx (i 0) kk j))

/-! ## Result window 2: the Gram matrix of (X, X) -/

/-- What a write-back of window 2 writes is the block of the layered sums. -/
theorem flushed_eq2
    (hacc : ∀ (t : Fin cfg0.N), t.val % 4 = 3 → ∀ (p q : Fin 256),
      (Fr.outsAt0 m c t.val t.isLt).1 (ix3 (0 : Fin 1) p q)
        = ∑ kk : Fin 4, ∑ j : Fin 12544, kX m c (ix2 p (chunkIdx ⟨t.val / 4, Blocks.row_lt t⟩ kk j))
            * kX m c (ix2 q (chunkIdx ⟨t.val / 4, Blocks.row_lt t⟩ kk j)))
    (t : Fin cfg0.N) (hf : (cfg0.win 2).flush t = true) :
    (Fr.dats m 0 c).flushed 2 t = ((cfg0.win 2).blk t).view.read (Elt Ideal) (gramLayers (kX m c) (kX m c)) := by
  have ht : t.val % 4 = 3 := (flush0_2 t).mp hf
  show (cfg0.win 2).cut (grid0.coords t) ((Fr.dats m 0 c).after 2 t) = _
  rw [Fr.after0_2]
  funext x
  obtain ⟨a, p, q, rfl⟩ : ∃ (a : Fin 1) (p q : Fin 256), x = ix3 a p q := ⟨x 0, x 1, x 2, eq_ix3 x⟩
  obtain rfl : a = 0 := Subsingleton.elim _ _
  have e : (cfg0.win 2).xinj (grid0.coords t) (ix3 (0 : Fin 1) p q) = ix3 (0 : Fin 1) p q :=
    funext fun b => Fin.ext (by match b with | ⟨0, _⟩ => rfl | ⟨1, _⟩ => rfl | ⟨2, _⟩ => rfl)
  show (Fr.outsAt0 m c t.val t.isLt).1 ((cfg0.win 2).xinj (grid0.coords t) (ix3 (0 : Fin 1) p q)) = _
  refine ((congrArg (Fr.outsAt0 m c t.val t.isLt).1 e).trans (hacc t ht p q)).trans ?_
  exact (Blocks.out_block2 (gramLayers (kX m c) (kX m c)) t p q).symm

/-- The array of window 2 ends holding the layered sums. -/
theorem arr2_of
    (hacc : ∀ (t : Fin cfg0.N), t.val % 4 = 3 → ∀ (p q : Fin 256),
      (Fr.outsAt0 m c t.val t.isLt).1 (ix3 (0 : Fin 1) p q)
        = ∑ kk : Fin 4, ∑ j : Fin 12544, kX m c (ix2 p (chunkIdx ⟨t.val / 4, Blocks.row_lt t⟩ kk j))
            * kX m c (ix2 q (chunkIdx ⟨t.val / 4, Blocks.row_lt t⟩ kk j))) :
    ∀ (cc : Fin 2) (p q : Fin 256), ((Fr.dats m 0 c).arrAt 2 cfg0.N : FVec Ideal S2x256x256 .f32) (ix3 cc p q)
      = ∑ kk : Fin 4, ∑ j : Fin 12544, kX m c (ix2 p (chunkIdx cc kk j)) * kX m c (ix2 q (chunkIdx cc kk j)) :=
  fun cc p q => congrFun ((Fr.dats m 0 c).arrAt_eq_of_cover 2 (gramLayers (kX m c) (kX m c))
    (flushed_eq2 m c hacc) Blocks.out_cover2) (ix3 cc p q)

/-! ## Result window 3: the Gram matrix of (Y, Y) -/

/-- What a write-back of window 3 writes is the block of the layered sums. -/
theorem flushed_eq3
    (hacc : ∀ (t : Fin cfg0.N), t.val % 4 = 3 → ∀ (p q : Fin 256),
      (Fr.outsAt0 m c t.val t.isLt).2.1 (ix3 (0 : Fin 1) p q)
        = ∑ kk : Fin 4, ∑ j : Fin 12544, kY m c (ix2 p (chunkIdx ⟨t.val / 4, Blocks.row_lt t⟩ kk j))
            * kY m c (ix2 q (chunkIdx ⟨t.val / 4, Blocks.row_lt t⟩ kk j)))
    (t : Fin cfg0.N) (hf : (cfg0.win 3).flush t = true) :
    (Fr.dats m 0 c).flushed 3 t = ((cfg0.win 3).blk t).view.read (Elt Ideal) (gramLayers (kY m c) (kY m c)) := by
  have ht : t.val % 4 = 3 := (flush0_3 t).mp hf
  show (cfg0.win 3).cut (grid0.coords t) ((Fr.dats m 0 c).after 3 t) = _
  rw [Fr.after0_3]
  funext x
  obtain ⟨a, p, q, rfl⟩ : ∃ (a : Fin 1) (p q : Fin 256), x = ix3 a p q := ⟨x 0, x 1, x 2, eq_ix3 x⟩
  obtain rfl : a = 0 := Subsingleton.elim _ _
  have e : (cfg0.win 3).xinj (grid0.coords t) (ix3 (0 : Fin 1) p q) = ix3 (0 : Fin 1) p q :=
    funext fun b => Fin.ext (by match b with | ⟨0, _⟩ => rfl | ⟨1, _⟩ => rfl | ⟨2, _⟩ => rfl)
  show (Fr.outsAt0 m c t.val t.isLt).2.1 ((cfg0.win 3).xinj (grid0.coords t) (ix3 (0 : Fin 1) p q)) = _
  refine ((congrArg (Fr.outsAt0 m c t.val t.isLt).2.1 e).trans (hacc t ht p q)).trans ?_
  exact (Blocks.out_block3 (gramLayers (kY m c) (kY m c)) t p q).symm

/-- The array of window 3 ends holding the layered sums. -/
theorem arr3_of
    (hacc : ∀ (t : Fin cfg0.N), t.val % 4 = 3 → ∀ (p q : Fin 256),
      (Fr.outsAt0 m c t.val t.isLt).2.1 (ix3 (0 : Fin 1) p q)
        = ∑ kk : Fin 4, ∑ j : Fin 12544, kY m c (ix2 p (chunkIdx ⟨t.val / 4, Blocks.row_lt t⟩ kk j))
            * kY m c (ix2 q (chunkIdx ⟨t.val / 4, Blocks.row_lt t⟩ kk j))) :
    ∀ (cc : Fin 2) (p q : Fin 256), ((Fr.dats m 0 c).arrAt 3 cfg0.N : FVec Ideal S2x256x256 .f32) (ix3 cc p q)
      = ∑ kk : Fin 4, ∑ j : Fin 12544, kY m c (ix2 p (chunkIdx cc kk j)) * kY m c (ix2 q (chunkIdx cc kk j)) :=
  fun cc p q => congrFun ((Fr.dats m 0 c).arrAt_eq_of_cover 3 (gramLayers (kY m c) (kY m c))
    (flushed_eq3 m c hacc) Blocks.out_cover3) (ix3 cc p q)

/-! ## Result window 4: the Gram matrix of (X, Y) -/

/-- What a write-back of window 4 writes is the block of the layered sums. -/
theorem flushed_eq4
    (hacc : ∀ (t : Fin cfg0.N), t.val % 4 = 3 → ∀ (p q : Fin 256),
      (Fr.outsAt0 m c t.val t.isLt).2.2.1 (ix3 (0 : Fin 1) p q)
        = ∑ kk : Fin 4, ∑ j : Fin 12544, kX m c (ix2 p (chunkIdx ⟨t.val / 4, Blocks.row_lt t⟩ kk j))
            * kY m c (ix2 q (chunkIdx ⟨t.val / 4, Blocks.row_lt t⟩ kk j)))
    (t : Fin cfg0.N) (hf : (cfg0.win 4).flush t = true) :
    (Fr.dats m 0 c).flushed 4 t = ((cfg0.win 4).blk t).view.read (Elt Ideal) (gramLayers (kX m c) (kY m c)) := by
  have ht : t.val % 4 = 3 := (flush0_4 t).mp hf
  show (cfg0.win 4).cut (grid0.coords t) ((Fr.dats m 0 c).after 4 t) = _
  rw [Fr.after0_4]
  funext x
  obtain ⟨a, p, q, rfl⟩ : ∃ (a : Fin 1) (p q : Fin 256), x = ix3 a p q := ⟨x 0, x 1, x 2, eq_ix3 x⟩
  obtain rfl : a = 0 := Subsingleton.elim _ _
  have e : (cfg0.win 4).xinj (grid0.coords t) (ix3 (0 : Fin 1) p q) = ix3 (0 : Fin 1) p q :=
    funext fun b => Fin.ext (by match b with | ⟨0, _⟩ => rfl | ⟨1, _⟩ => rfl | ⟨2, _⟩ => rfl)
  show (Fr.outsAt0 m c t.val t.isLt).2.2.1 ((cfg0.win 4).xinj (grid0.coords t) (ix3 (0 : Fin 1) p q)) = _
  refine ((congrArg (Fr.outsAt0 m c t.val t.isLt).2.2.1 e).trans (hacc t ht p q)).trans ?_
  exact (Blocks.out_block4 (gramLayers (kX m c) (kY m c)) t p q).symm

/-- The array of window 4 ends holding the layered sums. -/
theorem arr4_of
    (hacc : ∀ (t : Fin cfg0.N), t.val % 4 = 3 → ∀ (p q : Fin 256),
      (Fr.outsAt0 m c t.val t.isLt).2.2.1 (ix3 (0 : Fin 1) p q)
        = ∑ kk : Fin 4, ∑ j : Fin 12544, kX m c (ix2 p (chunkIdx ⟨t.val / 4, Blocks.row_lt t⟩ kk j))
            * kY m c (ix2 q (chunkIdx ⟨t.val / 4, Blocks.row_lt t⟩ kk j))) :
    ∀ (cc : Fin 2) (p q : Fin 256), ((Fr.dats m 0 c).arrAt 4 cfg0.N : FVec Ideal S2x256x256 .f32) (ix3 cc p q)
      = ∑ kk : Fin 4, ∑ j : Fin 12544, kX m c (ix2 p (chunkIdx cc kk j)) * kY m c (ix2 q (chunkIdx cc kk j)) :=
  fun cc p q => congrFun ((Fr.dats m 0 c).arrAt_eq_of_cover 4 (gramLayers (kX m c) (kY m c))
    (flushed_eq4 m c hacc) Blocks.out_cover4) (ix3 cc p q)

/-! ## Result window 5: the squared row norms of X -/

/-- What a write-back of window 5 writes is the block of the layered sums. -/
theorem flushed_eq5
    (hacc : ∀ (t : Fin cfg0.N), t.val % 4 = 3 → ∀ (p : Fin 256),
      (Fr.outsAt0 m c t.val t.isLt).2.2.2.1 (ix3 (0 : Fin 1) (0 : Fin 1) p)
        = ∑ kk : Fin 4, ∑ j : Fin 12544, kX m c (ix2 p (chunkIdx ⟨t.val / 4, Blocks.row_lt t⟩ kk j))
            * kX m c (ix2 p (chunkIdx ⟨t.val / 4, Blocks.row_lt t⟩ kk j)))
    (t : Fin cfg0.N) (hf : (cfg0.win 5).flush t = true) :
    (Fr.dats m 0 c).flushed 5 t = ((cfg0.win 5).blk t).view.read (Elt Ideal) (sqnLayers (kX m c)) := by
  have ht : t.val % 4 = 3 := (flush0_5 t).mp hf
  show (cfg0.win 5).cut (grid0.coords t) ((Fr.dats m 0 c).after 5 t) = _
  rw [Fr.after0_5]
  funext x
  obtain ⟨a, b, p, rfl⟩ : ∃ (a b : Fin 1) (p : Fin 256), x = ix3 a b p := ⟨x 0, x 1, x 2, eq_ix3 x⟩
  obtain rfl : a = 0 := Subsingleton.elim _ _
  obtain rfl : b = 0 := Subsingleton.elim _ _
  have e : (cfg0.win 5).xinj (grid0.coords t) (ix3 (0 : Fin 1) (0 : Fin 1) p) = ix3 (0 : Fin 1) (0 : Fin 1) p :=
    funext fun d => Fin.ext (by match d with | ⟨0, _⟩ => rfl | ⟨1, _⟩ => rfl | ⟨2, _⟩ => rfl)
  show (Fr.outsAt0 m c t.val t.isLt).2.2.2.1 ((cfg0.win 5).xinj (grid0.coords t) (ix3 (0 : Fin 1) (0 : Fin 1) p)) = _
  refine ((congrArg (Fr.outsAt0 m c t.val t.isLt).2.2.2.1 e).trans (hacc t ht p)).trans ?_
  exact (Blocks.out_block5 (sqnLayers (kX m c)) t p).symm

/-- The array of window 5 ends holding the layered sums. -/
theorem arr5_of
    (hacc : ∀ (t : Fin cfg0.N), t.val % 4 = 3 → ∀ (p : Fin 256),
      (Fr.outsAt0 m c t.val t.isLt).2.2.2.1 (ix3 (0 : Fin 1) (0 : Fin 1) p)
        = ∑ kk : Fin 4, ∑ j : Fin 12544, kX m c (ix2 p (chunkIdx ⟨t.val / 4, Blocks.row_lt t⟩ kk j))
            * kX m c (ix2 p (chunkIdx ⟨t.val / 4, Blocks.row_lt t⟩ kk j))) :
    ∀ (cc : Fin 2) (p : Fin 256), ((Fr.dats m 0 c).arrAt 5 cfg0.N : FVec Ideal S2x1x256 .f32) (ix3 cc (0 : Fin 1) p)
      = ∑ kk : Fin 4, ∑ j : Fin 12544, kX m c (ix2 p (chunkIdx cc kk j)) * kX m c (ix2 p (chunkIdx cc kk j)) :=
  fun cc p => congrFun ((Fr.dats m 0 c).arrAt_eq_of_cover 5 (sqnLayers (kX m c))
    (flushed_eq5 m c hacc) Blocks.out_cover5) (ix3 cc (0 : Fin 1) p)

/-! ## Result window 6: the squared row norms of Y -/

/-- What a write-back of window 6 writes is the block of the layered sums. -/
theorem flushed_eq6
    (hacc : ∀ (t : Fin cfg0.N), t.val % 4 = 3 → ∀ (p : Fin 256),
      (Fr.outsAt0 m c t.val t.isLt).2.2.2.2 (ix3 (0 : Fin 1) (0 : Fin 1) p)
        = ∑ kk : Fin 4, ∑ j : Fin 12544, kY m c (ix2 p (chunkIdx ⟨t.val / 4, Blocks.row_lt t⟩ kk j))
            * kY m c (ix2 p (chunkIdx ⟨t.val / 4, Blocks.row_lt t⟩ kk j)))
    (t : Fin cfg0.N) (hf : (cfg0.win 6).flush t = true) :
    (Fr.dats m 0 c).flushed 6 t = ((cfg0.win 6).blk t).view.read (Elt Ideal) (sqnLayers (kY m c)) := by
  have ht : t.val % 4 = 3 := (flush0_6 t).mp hf
  show (cfg0.win 6).cut (grid0.coords t) ((Fr.dats m 0 c).after 6 t) = _
  rw [Fr.after0_6]
  funext x
  obtain ⟨a, b, p, rfl⟩ : ∃ (a b : Fin 1) (p : Fin 256), x = ix3 a b p := ⟨x 0, x 1, x 2, eq_ix3 x⟩
  obtain rfl : a = 0 := Subsingleton.elim _ _
  obtain rfl : b = 0 := Subsingleton.elim _ _
  have e : (cfg0.win 6).xinj (grid0.coords t) (ix3 (0 : Fin 1) (0 : Fin 1) p) = ix3 (0 : Fin 1) (0 : Fin 1) p :=
    funext fun d => Fin.ext (by match d with | ⟨0, _⟩ => rfl | ⟨1, _⟩ => rfl | ⟨2, _⟩ => rfl)
  show (Fr.outsAt0 m c t.val t.isLt).2.2.2.2 ((cfg0.win 6).xinj (grid0.coords t) (ix3 (0 : Fin 1) (0 : Fin 1) p)) = _
  refine ((congrArg (Fr.outsAt0 m c t.val t.isLt).2.2.2.2 e).trans (hacc t ht p)).trans ?_
  exact (Blocks.out_block6 (sqnLayers (kY m c)) t p).symm

/-- The array of window 6 ends holding the layered sums. -/
theorem arr6_of
    (hacc : ∀ (t : Fin cfg0.N), t.val % 4 = 3 → ∀ (p : Fin 256),
      (Fr.outsAt0 m c t.val t.isLt).2.2.2.2 (ix3 (0 : Fin 1) (0 : Fin 1) p)
        = ∑ kk : Fin 4, ∑ j : Fin 12544, kY m c (ix2 p (chunkIdx ⟨t.val / 4, Blocks.row_lt t⟩ kk j))
            * kY m c (ix2 p (chunkIdx ⟨t.val / 4, Blocks.row_lt t⟩ kk j))) :
    ∀ (cc : Fin 2) (p : Fin 256), ((Fr.dats m 0 c).arrAt 6 cfg0.N : FVec Ideal S2x1x256 .f32) (ix3 cc (0 : Fin 1) p)
      = ∑ kk : Fin 4, ∑ j : Fin 12544, kY m c (ix2 p (chunkIdx cc kk j)) * kY m c (ix2 p (chunkIdx cc kk j)) :=
  fun cc p => congrFun ((Fr.dats m 0 c).arrAt_eq_of_cover 6 (sqnLayers (kY m c))
    (flushed_eq6 m c hacc) Blocks.out_cover6) (ix3 cc (0 : Fin 1) p)

end Cert.KernelIdeal.Arrays

end
-- ==== Proof.FrameIdeal.Pieces.lean ====
/-
  What each case of the body leaves in each output buffer, as the body's arithmetic of the two input blocks (and, in the
  adding case, of what the buffer held): the reset case stores zeros, reads them back and adds the chunk's term; the
  adding case adds the chunk's term onto the running contents.
-/
import proofs.«116301_j71829033058812_2_alg».proof.Proof.FrameIdeal.Frame
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The adding case -/

theorem outB_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) :
    out0_B_2 c i arg2 harg2 arg3 harg3 arg4 harg4 arg5 harg5 arg6 harg6 arg7 harg7 arg8 harg8 hc0 x0 x1 xo2 xo3 xo4 xo5 xo6 = k0_pay1 (k0_pay13 x0 xo2) := by
  unfold out0_B_2
  rw [View.read_writes_eq_canon _ _ _ (cover0_B_2 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, View.ld_unit_zero (S := S256x12544) hz2, View.ld_unit_zero (S := S1x256x256) hz3,
    View.ld_unit_zero (S := S1x1x256) hz3]

theorem outB_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) :
    out0_B_3 c i arg2 harg2 arg3 harg3 arg4 harg4 arg5 harg5 arg6 harg6 arg7 harg7 arg8 harg8 hc0 x0 x1 xo2 xo3 xo4 xo5 xo6 = k0_pay2 (k0_pay10 x1) xo3 := by
  unfold out0_B_3
  rw [View.read_writes_eq_canon _ _ _ (cover0_B_3 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, View.ld_unit_zero (S := S256x12544) hz2, View.ld_unit_zero (S := S1x256x256) hz3,
    View.ld_unit_zero (S := S1x1x256) hz3]

theorem outB_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) :
    out0_B_4 c i arg2 harg2 arg3 harg3 arg4 harg4 arg5 harg5 arg6 harg6 arg7 harg7 arg8 harg8 hc0 x0 x1 xo2 xo3 xo4 xo5 xo6 = k0_pay3 (k0_pay9 x0) (k0_pay10 x1) xo4 := by
  unfold out0_B_4
  rw [View.read_writes_eq_canon _ _ _ (cover0_B_4 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, View.ld_unit_zero (S := S256x12544) hz2, View.ld_unit_zero (S := S1x256x256) hz3,
    View.ld_unit_zero (S := S1x1x256) hz3]

theorem outB_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) :
    out0_B_5 c i arg2 harg2 arg3 harg3 arg4 harg4 arg5 harg5 arg6 harg6 arg7 harg7 arg8 harg8 hc0 x0 x1 xo2 xo3 xo4 xo5 xo6 = k0_pay11 x0 xo5 := by
  unfold out0_B_5
  rw [View.read_writes_eq_canon _ _ _ (cover0_B_5 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, View.ld_unit_zero (S := S256x12544) hz2, View.ld_unit_zero (S := S1x256x256) hz3,
    View.ld_unit_zero (S := S1x1x256) hz3]

theorem outB_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : ¬cond0_0 i)
    (x0 : Vec F S256x12544 .bf16) (x1 : Vec F S256x12544 .bf16) (xo2 : Vec F S1x256x256 .f32) (xo3 : Vec F S1x256x256 .f32) (xo4 : Vec F S1x256x256 .f32) (xo5 : Vec F S1x1x256 .f32) (xo6 : Vec F S1x1x256 .f32) :
    out0_B_6 c i arg2 harg2 arg3 harg3 arg4 harg4 arg5 harg5 arg6 harg6 arg7 harg7 arg8 harg8 hc0 x0 x1 xo2 xo3 xo4 xo5 xo6 = k0_pay12 x1 xo6 := by
  unfold out0_B_6
  rw [View.read_writes_eq_canon _ _ _ (cover0_B_6 c i arg2 harg2 arg3 harg3 arg4 harg4 arg5 harg5 arg6 harg6 arg7 harg7 arg8 harg8 hc0 x0 x1 xo2 xo3 xo4 xo5 xo6)]
  unfold kernelRun0_B
  dsimp only
  sl_unfold_words
  rw [View.canon_unit_zero hz3]
  simp only [View.readAt_eq_ld, harg2.read_unread, harg3.read_unread, harg4.read_unread, harg5.read_unread, harg6.read_unread,
    harg7.read_unread, harg8.read_unread, View.ld_unit_zero (S := S256x12544) hz2, View.ld_unit_zero (S := S1x256x256) hz3,
    View.ld_unit_zero (S := S1x1x256) hz3]

/-! ## The reset case -/

theorem outA_2 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) :
    out0_A_2 c i arg2 harg2 arg3 harg3 arg4 harg4 arg5 harg5 arg6 harg6 arg7 harg7 arg8 harg8 hc0 x0 x1 = k0_pay1 (k0_pay13 x0 (k0_pay4 (F := F))) := by
  unfold out0_A_2
  rw [View.read_writes_eq_canon _ _ _ (cover0_A_2 c i arg2 harg2 arg3 harg3 arg4 harg4 arg5 harg5 arg6 harg6 arg7 harg7 arg8 harg8 hc0 x0 x1)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, View.ld_unit_zero (S := S256x12544) hz2,
    View.ld_unit_zero (S := S1x256x256) hz3, View.ld_unit_zero (S := S1x1x256) hz3]

theorem outA_3 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) :
    out0_A_3 c i arg2 harg2 arg3 harg3 arg4 harg4 arg5 harg5 arg6 harg6 arg7 harg7 arg8 harg8 hc0 x0 x1 = k0_pay2 (k0_pay10 x1) (k0_pay5 (F := F)) := by
  unfold out0_A_3
  rw [View.read_writes_eq_canon _ _ _ (cover0_A_3 c i arg2 harg2 arg3 harg3 arg4 harg4 arg5 harg5 arg6 harg6 arg7 harg7 arg8 harg8 hc0 x0 x1)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, View.ld_unit_zero (S := S256x12544) hz2,
    View.ld_unit_zero (S := S1x256x256) hz3, View.ld_unit_zero (S := S1x1x256) hz3]

theorem outA_4 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) :
    out0_A_4 c i arg2 harg2 arg3 harg3 arg4 harg4 arg5 harg5 arg6 harg6 arg7 harg7 arg8 harg8 hc0 x0 x1 = k0_pay3 (k0_pay9 x0) (k0_pay10 x1) (k0_pay6 (F := F)) := by
  unfold out0_A_4
  rw [View.read_writes_eq_canon _ _ _ (cover0_A_4 c i arg2 harg2 arg3 harg3 arg4 harg4 arg5 harg5 arg6 harg6 arg7 harg7 arg8 harg8 hc0 x0 x1)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, View.ld_unit_zero (S := S256x12544) hz2,
    View.ld_unit_zero (S := S1x256x256) hz3, View.ld_unit_zero (S := S1x1x256) hz3]

theorem outA_5 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) :
    out0_A_5 c i arg2 harg2 arg3 harg3 arg4 harg4 arg5 harg5 arg6 harg6 arg7 harg7 arg8 harg8 hc0 x0 x1 = k0_pay11 x0 (k0_pay7 (F := F)) := by
  unfold out0_A_5
  rw [View.read_writes_eq_canon _ _ _ (cover0_A_5 c i arg2 harg2 arg3 harg3 arg4 harg4 arg5 harg5 arg6 harg6 arg7 harg7 arg8 harg8 hc0 x0 x1)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, View.ld_unit_zero (S := S256x12544) hz2,
    View.ld_unit_zero (S := S1x256x256) hz3, View.ld_unit_zero (S := S1x1x256) hz3]

theorem outA_6 (c : Dev nD) (i : grid0.Coords) (arg2 : Memref sig .tc .vmem S256x12544 .bf16) (harg2 : arg2.IsWhole) (arg3 : Memref sig .tc .vmem S256x12544 .bf16) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x1x256 .f32) (harg7 : arg7.IsWhole) (arg8 : Memref sig .tc .vmem S1x1x256 .f32) (harg8 : arg8.IsWhole) (hc0 : cond0_0 i)
    (x0 : Vec F S256x12544 .bf16) (x1 : Vec F S256x12544 .bf16) :
    out0_A_6 c i arg2 harg2 arg3 harg3 arg4 harg4 arg5 harg5 arg6 harg6 arg7 harg7 arg8 harg8 hc0 x0 x1 = k0_pay12 x1 (k0_pay8 (F := F)) := by
  unfold out0_A_6
  rw [View.read_writes_eq_canon _ _ _ (cover0_A_6 c i arg2 harg2 arg3 harg3 arg4 harg4 arg5 harg5 arg6 harg6 arg7 harg7 arg8 harg8 hc0 x0 x1)]
  unfold kernelRun0_A
  dsimp only
  sl_unfold_words
  rw [View.canon_cons_unit_zero (S := S1x1x256) hz3, View.readCov_unit_zero (S := S1x1x256) _ hz3]
  simp only [View.readAt_eq_ld, harg2.read_unread, harg3.read_unread, View.ld_unit_zero (S := S256x12544) hz2,
    View.ld_unit_zero (S := S1x256x256) hz3, View.ld_unit_zero (S := S1x1x256) hz3]

end Cert.KernelIdeal.Val

end
-- ==== Proof.LibDotABt.lean ====
/-
  A matrix product with the second factor transposed, re-indexed to a plain sum.

  For a dot of an `M × K` array with an `N × K` array that contracts the second axis of each, the entry at
  `(p, q)` is the sum over the contraction index of `l (p, k) * r (q, k)`. The contraction index is a one-axis
  index of extent `K`; carrying the sum along the bijection with `Fin K` gives
  `∑ k : Fin K, l (ix2 p k) * r (ix2 q k)`. The coordinate facts of the dimension record are hypotheses, so
  that one statement serves every record of this form (for a literal record each holds by computation).
-/
import Idealize.ShloMosaic.PureOps.Ideal
import Idealize.ShloMosaic.PureOps.Dims
import Idealize.ShloMosaic.Lib.ValueIdx

noncomputable section

namespace Cert.LibDotABt

open Idealize.ShloMosaic Idealize.ShloMosaic.ValueIdx

/-- GENERAL LEMMA. For a dot record `d` on shapes `[M, K] × [N, K] → [M, N]` whose contraction shape has one axis
    of extent `K`, whose left index at `(j, k)` is `(j 0, k)` and whose right index is `(j 1, k)`, the contraction
    sum of `l` against `r` at the output index `j` is `∑ k : Fin K, l (j 0, k) * r (j 1, k)`. -/
theorem sum_contr_abt {M K N : Nat}
    (d : DotDims (⟨2, ![M, K]⟩ : Shape) (⟨2, ![N, K]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (j 1).val)
    (hr1 : ∀ (j : (⟨2, ![M, N]⟩ : Shape).Idx) (k : d.contr.Idx), (d.rhsIdx j k 1).val = (k ⟨0, by omega⟩).val)
    (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 (j 1) k) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 (j 1) k := by
    funext a
    apply Fin.ext
    match a with
    | ⟨0, _⟩ => exact hr0 j _
    | ⟨1, _⟩ => exact (hr1 j _).trans hk
  rw [el, er]
  rfl

end Cert.LibDotABt

end
-- ==== Proof.LibLaneSum.lean ====
/-
  A lane sum read at a row.

  Summing an [a, b] array over its second axis onto the zero accumulator gives an [a] vector whose entry p is, at the
  exact values, the sum over k of the entries (p, k): the index the reduction reads for row p and position k is (p, k),
  and at the exact values the reduction is the plain sum whatever its order.
-/
import Idealize.ShloMosaic.Lib.Pipeline.Value
import Idealize.ShloMosaic.Lib.ValueIdx
import Idealize.ShloMosaic.PureOps.Ideal.Laws

noncomputable section

namespace Cert.LibLaneSum

open Idealize.ShloMosaic Idealize.ShloMosaic.ValueIdx

/-- GENERAL LEMMA. The index a reduction over axis 1 of an [a, b] array reads for row `p` and position `k` is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- GENERAL LEMMA. A float sum over axis 1 of an [a, b] array, at the exact values and onto the zero accumulator, is
    at row `p` the sum over `k` of the entries `(p, k)`. The accumulator fact is taken in the form a printed program
    carries it (the zero word equal to itself). -/
theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.KernelPayloads.lean ====
/-
  The kernel body's stored values, read at an index, at the exact values.

  Each payload of the kernel function is one pure term over the values loaded before it. Read at an index built from
  coordinates, each is: the loaded accumulator there plus a sum over the long axis of products of two rows (the three
  Gram payloads and the two row square-norm payloads), the operand itself (a cast to the operand's own shape, or a
  cast that only adds a leading unit axis), or zero (the reset payloads).
-/
import proofs.«116301_j71829033058812_2_alg».proof.Proof.Gen.KernelIdeal.Skeleton
import proofs.«116301_j71829033058812_2_alg».proof.Proof.LibDotABt
import proofs.«116301_j71829033058812_2_alg».proof.Proof.LibLaneSum
import Idealize.ShloMosaic.Lib.ValueLayout
import Idealize.ShloMosaic.PureOps.Ideal.Laws

noncomputable section

namespace Cert.KernelIdeal.Payloads

open Idealize.ShloMosaic Idealize.ShloMosaic.ValueIdx Cert.KernelIdeal Cert.KernelIdeal.Gen

/-! ## The product of a [256, 12544] array with the transpose of another, into the zero array -/

/-- The matrix product contracting the long axis of both operands, accumulated into the zero array, is at `(p, q)`
    the sum over the long axis of the products of row `p` of the left operand and row `q` of the right one. -/
theorem gram_apply (l r : FVec Ideal S256x12544 .bf16) (p q : Fin 256) :
    matmul (F := Ideal) dot_S256x12544_S256x12544_S256x256_1_1_0_0_n_n none l r
        (constant (F := Ideal) S256x256 .f32 0x00000000#32) (ix2 p q)
      = ∑ j : Fin 12544, l (ix2 p j) * r (ix2 q j) :=
  (Ideal.matmul_constant_zero_apply dot_S256x12544_S256x12544_S256x256_1_1_0_0_n_n none l r (ix2 p q)).trans
    (Cert.LibDotABt.sum_contr_abt dot_S256x12544_S256x12544_S256x256_1_1_0_0_n_n rfl rfl
      (fun _ _ => rfl) (fun _ _ => rfl) (fun _ _ => rfl) (fun _ _ => rfl) l r (ix2 p q))

/-! ## The casts of an operand to its own shape -/

/-- A cast of the loaded left chunk to its own shape is the chunk. -/
theorem pay9_eq (v3 : Vec Ideal S256x12544 .bf16) : k0_pay9 (F := Ideal) v3 = v3 :=
  shapeCast_self v3 _

theorem pay9_apply (v3 : Vec Ideal S256x12544 .bf16) (i : S256x12544.Idx) : k0_pay9 (F := Ideal) v3 i = v3 i :=
  congrFun (pay9_eq v3) i

/-- A cast of the loaded right chunk to its own shape is the chunk. -/
theorem pay10_eq (v5 : Vec Ideal S256x12544 .bf16) : k0_pay10 (F := Ideal) v5 = v5 :=
  shapeCast_self v5 _

theorem pay10_apply (v5 : Vec Ideal S256x12544 .bf16) (i : S256x12544.Idx) : k0_pay10 (F := Ideal) v5 i = v5 i :=
  congrFun (pay10_eq v5) i

/-! ## The three Gram payloads -/

/-- The first Gram accumulator's new value at `(p, q)`: the loaded one there plus the sum over the long axis of the
    products of rows `p` and `q` of the left chunk. -/
theorem pay13_apply (v3 : Vec Ideal S256x12544 .bf16) (v27 : Vec Ideal S1x256x256 .f32) (p q : Fin 256) :
    k0_pay13 (F := Ideal) v3 v27 (ix2 p q)
      = v27 (ix3 (0 : Fin 1) p q) + ∑ j : Fin 12544, v3 (ix2 p j) * v3 (ix2 q j) := by
  unfold k0_pay13
  rw [pay9_eq v3]
  exact congrArg₂ (· + ·) (shapeCast_1ab_ab_apply v27 _ p q) (gram_apply v3 v3 p q)

/-- The stored first Gram block at `(0, p, q)` is the new value at `(p, q)`. -/
theorem pay1_apply (v30 : FVec Ideal S256x256 .f32) (p q : Fin 256) :
    k0_pay1 (F := Ideal) v30 (ix3 (0 : Fin 1) p q) = v30 (ix2 p q) :=
  shapeCast_ab_1ab_apply v30 _ (0 : Fin 1) p q

/-- The second Gram block's new value at `(0, p, q)`: the loaded one there plus the sum over the long axis of the
    products of rows `p` and `q` of the right chunk. -/
theorem pay2_apply (v6 : FVec Ideal S256x12544 .bf16) (v34 : Vec Ideal S1x256x256 .f32) (p q : Fin 256) :
    k0_pay2 (F := Ideal) v6 v34 (ix3 (0 : Fin 1) p q)
      = v34 (ix3 (0 : Fin 1) p q) + ∑ j : Fin 12544, v6 (ix2 p j) * v6 (ix2 q j) := by
  unfold k0_pay2
  refine (shapeCast_ab_1ab_apply _ _ (0 : Fin 1) p q).trans ?_
  exact congrArg₂ (· + ·) (shapeCast_1ab_ab_apply v34 _ p q) (gram_apply v6 v6 p q)

/-- The cross Gram block's new value at `(0, p, q)`: the loaded one there plus the sum over the long axis of the
    products of row `p` of the left chunk and row `q` of the right chunk. -/
theorem pay3_apply (v4 v6 : FVec Ideal S256x12544 .bf16) (v41 : Vec Ideal S1x256x256 .f32) (p q : Fin 256) :
    k0_pay3 (F := Ideal) v4 v6 v41 (ix3 (0 : Fin 1) p q)
      = v41 (ix3 (0 : Fin 1) p q) + ∑ j : Fin 12544, v4 (ix2 p j) * v6 (ix2 q j) := by
  unfold k0_pay3
  refine (shapeCast_ab_1ab_apply _ _ (0 : Fin 1) p q).trans ?_
  exact congrArg₂ (· + ·) (shapeCast_1ab_ab_apply v41 _ p q) (gram_apply v4 v6 p q)

/-! ## The two row square-norm payloads -/

/-- The row square-norms of a chunk: widened to the wider format (the identity at the exact values), squared entry by
    entry, summed along the long axis onto zero, and read as a [1, 256] row at `(0, p)`: the sum over the long axis of
    the squares of row `p`. -/
theorem sqn_apply (x : FVec Ideal S256x12544 .bf16) (p : Fin 256) :
    shapeCast S1x256
        (multiReduction (F := Ideal) .add [1] S256
          (mulf (extf (F := Ideal) .f32 x bitsLt_bf16_f32) (extf (F := Ideal) .f32 x bitsLt_bf16_f32))
          0x00000000#32 reduces_S256x12544_S256 (.inl rfl) rfl)
        shapeCasts_S256_S1x256 (ix2 (0 : Fin 1) p)
      = ∑ j : Fin 12544, x (ix2 p j) * x (ix2 p j) :=
  (shapeCast_a_1a_apply _ _ (0 : Fin 1) p).trans
    (Cert.LibLaneSum.sum_axis1_apply _ reduces_S256x12544_S256 (.inl rfl) rfl p)

/-- The first row square-norm block's new value at `(0, 0, p)`: the loaded one there plus the sum over the long axis
    of the squares of row `p` of the left chunk. -/
theorem pay11_apply (v3 : Vec Ideal S256x12544 .bf16) (v9 : Vec Ideal S1x1x256 .f32) (p : Fin 256) :
    k0_pay11 (F := Ideal) v3 v9 (ix3 (0 : Fin 1) (0 : Fin 1) p)
      = v9 (ix3 (0 : Fin 1) (0 : Fin 1) p) + ∑ j : Fin 12544, v3 (ix2 p j) * v3 (ix2 p j) := by
  unfold k0_pay11
  rw [pay9_eq v3]
  refine (shapeCast_ab_1ab_apply _ _ (0 : Fin 1) (0 : Fin 1) p).trans ?_
  exact congrArg₂ (· + ·) (shapeCast_1ab_ab_apply v9 _ (0 : Fin 1) p) (sqn_apply v3 p)

/-- The second row square-norm block's new value at `(0, 0, p)`: the loaded one there plus the sum over the long axis
    of the squares of row `p` of the right chunk. -/
theorem pay12_apply (v5 : Vec Ideal S256x12544 .bf16) (v18 : Vec Ideal S1x1x256 .f32) (p : Fin 256) :
    k0_pay12 (F := Ideal) v5 v18 (ix3 (0 : Fin 1) (0 : Fin 1) p)
      = v18 (ix3 (0 : Fin 1) (0 : Fin 1) p) + ∑ j : Fin 12544, v5 (ix2 p j) * v5 (ix2 p j) := by
  unfold k0_pay12
  rw [pay10_eq v5]
  refine (shapeCast_ab_1ab_apply _ _ (0 : Fin 1) (0 : Fin 1) p).trans ?_
  exact congrArg₂ (· + ·) (shapeCast_1ab_ab_apply v18 _ (0 : Fin 1) p) (sqn_apply v5 p)

/-! ## The reset payloads -/

/-- The zero word of the wider format is the number zero at the exact values. -/
theorem zero_word : Scalar.ofBits (F := Ideal) .f32 0x00000000#32 = 0 := Ideal.ofBits_zero_f32

theorem pay4_apply (p q : Fin 256) : k0_pay4 (F := Ideal) (ix3 (0 : Fin 1) p q) = 0 := by
  unfold k0_pay4
  exact (shapeCast_ab_1ab_apply (broadcast S256x256 (Scalar.ofBits (F := Ideal) .f32 0x00000000#32)) _ (0 : Fin 1) p q).trans zero_word

theorem pay5_apply (p q : Fin 256) : k0_pay5 (F := Ideal) (ix3 (0 : Fin 1) p q) = 0 := by
  unfold k0_pay5
  exact (shapeCast_ab_1ab_apply (broadcast S256x256 (Scalar.ofBits (F := Ideal) .f32 0x00000000#32)) _ (0 : Fin 1) p q).trans zero_word

theorem pay6_apply (p q : Fin 256) : k0_pay6 (F := Ideal) (ix3 (0 : Fin 1) p q) = 0 := by
  unfold k0_pay6
  exact (shapeCast_ab_1ab_apply (broadcast S256x256 (Scalar.ofBits (F := Ideal) .f32 0x00000000#32)) _ (0 : Fin 1) p q).trans zero_word

theorem pay7_apply (p : Fin 256) : k0_pay7 (F := Ideal) (ix3 (0 : Fin 1) (0 : Fin 1) p) = 0 := by
  unfold k0_pay7
  exact (shapeCast_ab_1ab_apply (broadcast S1x256 (Scalar.ofBits (F := Ideal) .f32 0x00000000#32)) _ (0 : Fin 1) (0 : Fin 1) p).trans zero_word

theorem pay8_apply (p : Fin 256) : k0_pay8 (F := Ideal) (ix3 (0 : Fin 1) (0 : Fin 1) p) = 0 := by
  unfold k0_pay8
  exact (shapeCast_ab_1ab_apply (broadcast S1x256 (Scalar.ofBits (F := Ideal) .f32 0x00000000#32)) _ (0 : Fin 1) (0 : Fin 1) p).trans zero_word

end Cert.KernelIdeal.Payloads

end
-- ==== Proof.LibTileSum.lean ====
/-
  An accumulator carried over a run of consecutive grid points.

  A point-indexed quantity that starts from `z` plus the point's term at the first point of each run of `J` points and
  adds the point's term to its previous value at every other point holds, at offset `j` in a run, `z` plus the terms
  of the run's first `j + 1` points. Only associativity of `+` is used.
-/
import Mathlib.Algebra.BigOperators.Intervals

namespace Cert.TileSum

open Finset

variable {M : Type*} [AddCommMonoid M] {ι : Type*} {N : ℕ}

/-- GENERAL LEMMA. At offset `j` of the run starting at `J * q` the accumulator holds `z` plus the run's first `j + 1` terms. -/
theorem run_at (J : ℕ) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (q : ℕ) (i : ι) : ∀ (j : ℕ), j < J → ∀ (h : J * q + j < N), acc (J * q + j) h i = z + ∑ s ∈ range (j + 1), term (J * q + s) i
  | 0, _, h => by
    rw [h_first _ h (by rw [Nat.add_zero, Nat.mul_mod_right]) i, sum_range_one]
  | j + 1, hj, h => by
    have hne : ¬ (J * q + j + 1) % J = 0 := by
      rw [Nat.add_assoc, Nat.mul_add_mod, Nat.mod_eq_of_lt hj]; exact Nat.succ_ne_zero j
    have hs := h_next (J * q + j) h hne i
    refine hs.trans ?_
    rw [run_at J z acc term h_first h_next q i j (Nat.lt_of_succ_lt hj) (Nat.lt_of_succ_lt h),
      sum_range_succ _ (j + 1), add_assoc]
    rfl

/-- GENERAL LEMMA. At the last point of its run the accumulator holds `z` plus the whole run's terms. -/
theorem run_last (J : ℕ) (hJ : 0 < J) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (t : ℕ) (ht : t < N) (hlast : t % J = J - 1) (i : ι) :
    acc t ht i = z + ∑ s ∈ range J, term (J * (t / J) + s) i := by
  have same : ∀ (u : ℕ) (hu : u < N), u = t → acc u hu i = acc t ht i := fun u hu e => by subst e; rfl
  have h' : J * (t / J) + t % J < N := by rw [Nat.div_add_mod]; exact ht
  rw [← same _ h' (Nat.div_add_mod t J), run_at J z acc term h_first h_next (t / J) i (t % J) (Nat.mod_lt t hJ) h', hlast,
    Nat.sub_add_cancel hJ]

end Cert.TileSum
-- ==== Proof.KernelAccum.lean ====
/-
  The accumulators at the write-back points, in closed form, at the exact values.

  Each of the five output buffers is reset at the first point of a row of the grid (inner coordinate zero) and added
  into at the three later points of the row; the point's term is a sum over the 12544 columns of the point's chunk of
  products of two rows' entries. At the last point of the row — the point that writes back — the buffer therefore
  holds the sum over the row's four chunks of those terms, and a chunk's columns are columns of the flat arrays.
-/
import proofs.«116301_j71829033058812_2_alg».proof.Proof.FrameIdeal.Pieces
import proofs.«116301_j71829033058812_2_alg».proof.Proof.KernelPayloads
import proofs.«116301_j71829033058812_2_alg».proof.Proof.KernelBlocks
import proofs.«116301_j71829033058812_2_alg».proof.Proof.LibTileSum
import proofs.«116301_j71829033058812_2_alg».proof.Proof.SumChunks
import proofs.«116301_j71829033058812_2_alg».proof.Proof.KernelResult

set_option maxRecDepth 16384

noncomputable section

namespace Cert.KernelIdeal.Accum

open Cert.KernelIdeal Cert.KernelIdeal.Gen Cert.KernelIdeal.Blocks
open Idealize.ShloMosaic Idealize.ShloMosaic.TcCoe Idealize.ShloMosaic.ValueIdx Idealize.SL.Sem
open Cert.Mmd (chunkIdx)

variable (m : (ℓ : Loc nD τ sig) → Buf (Elt Ideal) ℓ) (c : Dev nD)

/-- Input window 0's block at a grid point, as a [256, 12544] array. -/
abbrev blk0 (t : Fin cfg0.N) : Vec Ideal S256x12544 .bf16 := Fr.iblk m c 0 t
/-- Input window 1's block at a grid point, as a [256, 12544] array. -/
abbrev blk1 (t : Fin cfg0.N) : Vec Ideal S256x12544 .bf16 := Fr.iblk m c 1 t

/-! ## A run of four points -/

/-- Point `kk` of the row of the grid that point `t` lies in is a grid point. -/
theorem pt_lt (t : Fin cfg0.N) (kk : Fin 4) : 4 * (t.val / 4) + kk.val < cfg0.N :=
  lt_of_lt_of_eq (by have := t_lt t; have := kk.isLt; omega) N_0.symm

/-- An accumulator that holds the point's term at the first point of each row of the grid and adds the point's term
    to what the point before left at the other points holds, at the last point of a row, the sum of the row's four
    terms. -/
theorem closed {ι : Type} (acc : (n : ℕ) → n < cfg0.N → ι → EReal) (bt : Fin cfg0.N → ι → EReal)
    (hfirst : ∀ (n : ℕ) (h : n < cfg0.N), n % 4 = 0 → ∀ i, acc n h i = bt ⟨n, h⟩ i)
    (hnext : ∀ (n : ℕ) (h : n + 1 < cfg0.N), ¬(n + 1) % 4 = 0 → ∀ i,
      acc (n + 1) h i = acc n (Nat.lt_of_succ_lt h) i + bt ⟨n + 1, h⟩ i)
    (t : Fin cfg0.N) (h3 : t.val % 4 = 3) (i : ι) :
    acc t.val t.isLt i = ∑ kk : Fin 4, bt ⟨4 * (t.val / 4) + kk.val, pt_lt t kk⟩ i := by
  have key := Cert.TileSum.run_last (N := cfg0.N) 4 (by norm_num) (0 : EReal) acc
    (fun n i => if h : n < cfg0.N then bt ⟨n, h⟩ i else 0)
    (fun n h hm i => by simp only [dif_pos h, zero_add]; exact hfirst n h hm i)
    (fun n h hm i => by simp only [dif_pos h]; exact hnext n h hm i)
    t.val t.isLt (by omega) i
  rw [key, zero_add, Finset.sum_range]
  refine Finset.sum_congr rfl fun kk _ => ?_
  exact dif_pos (pt_lt t kk)

/-! ## A chunk's columns in the flat arrays -/

/-- Chunk `kk` of the row of the grid that point `t` lies in, read at `(p, j)`: the flat array at `(p, chunkIdx (t / 4) kk j)`. -/
theorem in0_chunk (t : Fin cfg0.N) (kk : Fin 4) (p : Fin 256) (j : Fin 12544) :
    blk0 m c ⟨4 * (t.val / 4) + kk.val, pt_lt t kk⟩ (ix2 p j)
      = Result.kX m c (ix2 p (chunkIdx (⟨t.val / 4, row_lt t⟩ : Fin 2) kk j)) :=
  (in0_block m c ⟨4 * (t.val / 4) + kk.val, pt_lt t kk⟩ p j).trans
    (congrArg (fun k => Result.kX m c (ix2 p k)) (Fin.ext (by
      show (4 * (t.val / 4) + kk.val) * 12544 + j.val = (t.val / 4 * 4 + kk.val) * 12544 + j.val
      omega)))

/-- Chunk `kk` of the row of the grid that point `t` lies in, read at `(p, j)`: the flat array at `(p, chunkIdx (t / 4) kk j)`. -/
theorem in1_chunk (t : Fin cfg0.N) (kk : Fin 4) (p : Fin 256) (j : Fin 12544) :
    blk1 m c ⟨4 * (t.val / 4) + kk.val, pt_lt t kk⟩ (ix2 p j)
      = Result.kY m c (ix2 p (chunkIdx (⟨t.val / 4, row_lt t⟩ : Fin 2) kk j)) :=
  (in1_block m c ⟨4 * (t.val / 4) + kk.val, pt_lt t kk⟩ p j).trans
    (congrArg (fun k => Result.kY m c (ix2 p k)) (Fin.ext (by
      show (4 * (t.val / 4) + kk.val) * 12544 + j.val = (t.val / 4 * 4 + kk.val) * 12544 + j.val
      omega)))

/-! ## Output window 2 -/

/-- The reset case's contents of window 2's buffer at an index: the chunk's term alone (the stored zero plus it). -/
theorem stepA2 (x0 : Vec Ideal S256x12544 .bf16) (p q : Fin 256) :
    k0_pay1 (F := Ideal) (k0_pay13 x0 (k0_pay4 (F := Ideal))) (ix3 (0 : Fin 1) p q)
      = ∑ j : Fin 12544, x0 (ix2 p j) * x0 (ix2 q j) := by
  rw [Payloads.pay1_apply, Payloads.pay13_apply, Payloads.pay4_apply, zero_add]

/-- The adding case's contents of window 2's buffer at an index: what it held plus the chunk's term. -/
theorem stepB2 (x0 : Vec Ideal S256x12544 .bf16) (xo : Vec Ideal S1x256x256 .f32) (p q : Fin 256) :
    k0_pay1 (F := Ideal) (k0_pay13 x0 xo) (ix3 (0 : Fin 1) p q)
      = xo (ix3 (0 : Fin 1) p q) + ∑ j : Fin 12544, x0 (ix2 p j) * x0 (ix2 q j) := by
  rw [Payloads.pay1_apply, Payloads.pay13_apply]

/-- At a point whose inner coordinate is zero window 2's buffer ends with the point's term. -/
theorem first2 (n : ℕ) (h : n < cfg0.N) (h0 : n % 4 = 0) (i : Fin 256 × Fin 256) :
    (Fr.outsAt0 m c n h).1 (ix3 (0 : Fin 1) i.1 i.2)
      = ∑ j : Fin 12544, blk0 m c ⟨n, h⟩ (ix2 i.1 j) * blk0 m c ⟨n, h⟩ (ix2 i.2 j) := by
  have e := congrArg Prod.fst (Fr.outsAt0_A m c ⟨n, h⟩ h0)
  dsimp only at e
  rw [e, Val.outA_2]
  exact stepA2 (blk0 m c ⟨n, h⟩) i.1 i.2

/-- At every other point it ends with what the point before left plus the point's term. -/
theorem next2 (n : ℕ) (h : n + 1 < cfg0.N) (h0 : ¬(n + 1) % 4 = 0) (i : Fin 256 × Fin 256) :
    (Fr.outsAt0 m c (n + 1) h).1 (ix3 (0 : Fin 1) i.1 i.2)
      = (Fr.outsAt0 m c n (Nat.lt_of_succ_lt h)).1 (ix3 (0 : Fin 1) i.1 i.2)
        + ∑ j : Fin 12544, blk0 m c ⟨n + 1, h⟩ (ix2 i.1 j) * blk0 m c ⟨n + 1, h⟩ (ix2 i.2 j) := by
  have e := congrArg Prod.fst (Fr.outsAt0_B m c ⟨n + 1, h⟩ h0)
  dsimp only at e
  rw [e, Val.outB_2]
  exact stepB2 (blk0 m c ⟨n + 1, h⟩) _ i.1 i.2

/-- At the last point of a row of the grid window 2's buffer holds, at an index, the sum over the row's four chunks
    and the 12544 columns of a chunk of the products of the two rows' entries in that column of the flat arrays. -/
theorem acc2 (t : Fin cfg0.N) (h3 : t.val % 4 = 3) (p q : Fin 256) :
    (Fr.outsAt0 m c t.val t.isLt).1 (ix3 (0 : Fin 1) p q)
      = ∑ kk : Fin 4, ∑ j : Fin 12544,
          Result.kX m c (ix2 p (chunkIdx (⟨t.val / 4, row_lt t⟩ : Fin 2) kk j))
            * Result.kX m c (ix2 q (chunkIdx (⟨t.val / 4, row_lt t⟩ : Fin 2) kk j)) := by
  refine (closed (ι := Fin 256 × Fin 256) (fun n h i => (Fr.outsAt0 m c n h).1 (ix3 (0 : Fin 1) i.1 i.2))
    (fun t i => ∑ j : Fin 12544, blk0 m c t (ix2 i.1 j) * blk0 m c t (ix2 i.2 j))
    (first2 m c) (next2 m c) t h3 (p, q)).trans ?_
  refine Finset.sum_congr rfl fun kk _ => ?_
  show ∑ j : Fin 12544, blk0 m c ⟨4 * (t.val / 4) + kk.val, pt_lt t kk⟩ (ix2 p j)
      * blk0 m c ⟨4 * (t.val / 4) + kk.val, pt_lt t kk⟩ (ix2 q j) = _
  refine Finset.sum_congr rfl fun j _ => ?_
  exact congrArg₂ (· * ·) (in0_chunk m c t kk p j) (in0_chunk m c t kk q j)

/-! ## Output window 3 -/

/-- The reset case's contents of window 3's buffer at an index: the chunk's term alone (the stored zero plus it). -/
theorem stepA3 (x1 : Vec Ideal S256x12544 .bf16) (p q : Fin 256) :
    k0_pay2 (F := Ideal) (k0_pay10 x1) (k0_pay5 (F := Ideal)) (ix3 (0 : Fin 1) p q)
      = ∑ j : Fin 12544, x1 (ix2 p j) * x1 (ix2 q j) := by
  rw [Payloads.pay10_eq, Payloads.pay2_apply, Payloads.pay5_apply, zero_add]

/-- The adding case's contents of window 3's buffer at an index: what it held plus the chunk's term. -/
theorem stepB3 (x1 : Vec Ideal S256x12544 .bf16) (xo : Vec Ideal S1x256x256 .f32) (p q : Fin 256) :
    k0_pay2 (F := Ideal) (k0_pay10 x1) xo (ix3 (0 : Fin 1) p q)
      = xo (ix3 (0 : Fin 1) p q) + ∑ j : Fin 12544, x1 (ix2 p j) * x1 (ix2 q j) := by
  rw [Payloads.pay10_eq, Payloads.pay2_apply]

/-- At a point whose inner coordinate is zero window 3's buffer ends with the point's term. -/
theorem first3 (n : ℕ) (h : n < cfg0.N) (h0 : n % 4 = 0) (i : Fin 256 × Fin 256) :
    (Fr.outsAt0 m c n h).2.1 (ix3 (0 : Fin 1) i.1 i.2)
      = ∑ j : Fin 12544, blk1 m c ⟨n, h⟩ (ix2 i.1 j) * blk1 m c ⟨n, h⟩ (ix2 i.2 j) := by
  have e := congrArg (fun x => x.2.1) (Fr.outsAt0_A m c ⟨n, h⟩ h0)
  dsimp only at e
  rw [e, Val.outA_3]
  exact stepA3 (blk1 m c ⟨n, h⟩) i.1 i.2

/-- At every other point it ends with what the point before left plus the point's term. -/
theorem next3 (n : ℕ) (h : n + 1 < cfg0.N) (h0 : ¬(n + 1) % 4 = 0) (i : Fin 256 × Fin 256) :
    (Fr.outsAt0 m c (n + 1) h).2.1 (ix3 (0 : Fin 1) i.1 i.2)
      = (Fr.outsAt0 m c n (Nat.lt_of_succ_lt h)).2.1 (ix3 (0 : Fin 1) i.1 i.2)
        + ∑ j : Fin 12544, blk1 m c ⟨n + 1, h⟩ (ix2 i.1 j) * blk1 m c ⟨n + 1, h⟩ (ix2 i.2 j) := by
  have e := congrArg (fun x => x.2.1) (Fr.outsAt0_B m c ⟨n + 1, h⟩ h0)
  dsimp only at e
  rw [e, Val.outB_3]
  exact stepB3 (blk1 m c ⟨n + 1, h⟩) _ i.1 i.2

/-- At the last point of a row of the grid window 3's buffer holds, at an index, the sum over the row's four chunks
    and the 12544 columns of a chunk of the products of the two rows' entries in that column of the flat arrays. -/
theorem acc3 (t : Fin cfg0.N) (h3 : t.val % 4 = 3) (p q : Fin 256) :
    (Fr.outsAt0 m c t.val t.isLt).2.1 (ix3 (0 : Fin 1) p q)
      = ∑ kk : Fin 4, ∑ j : Fin 12544,
          Result.kY m c (ix2 p (chunkIdx (⟨t.val / 4, row_lt t⟩ : Fin 2) kk j))
            * Result.kY m c (ix2 q (chunkIdx (⟨t.val / 4, row_lt t⟩ : Fin 2) kk j)) := by
  refine (closed (ι := Fin 256 × Fin 256) (fun n h i => (Fr.outsAt0 m c n h).2.1 (ix3 (0 : Fin 1) i.1 i.2))
    (fun t i => ∑ j : Fin 12544, blk1 m c t (ix2 i.1 j) * blk1 m c t (ix2 i.2 j))
    (first3 m c) (next3 m c) t h3 (p, q)).trans ?_
  refine Finset.sum_congr rfl fun kk _ => ?_
  show ∑ j : Fin 12544, blk1 m c ⟨4 * (t.val / 4) + kk.val, pt_lt t kk⟩ (ix2 p j)
      * blk1 m c ⟨4 * (t.val / 4) + kk.val, pt_lt t kk⟩ (ix2 q j) = _
  refine Finset.sum_congr rfl fun j _ => ?_
  exact congrArg₂ (· * ·) (in1_chunk m c t kk p j) (in1_chunk m c t kk q j)

/-! ## Output window 4 -/

/-- The reset case's contents of window 4's buffer at an index: the chunk's term alone (the stored zero plus it). -/
theorem stepA4 (x0 : Vec Ideal S256x12544 .bf16) (x1 : Vec Ideal S256x12544 .bf16) (p q : Fin 256) :
    k0_pay3 (F := Ideal) (k0_pay9 x0) (k0_pay10 x1) (k0_pay6 (F := Ideal)) (ix3 (0 : Fin 1) p q)
      = ∑ j : Fin 12544, x0 (ix2 p j) * x1 (ix2 q j) := by
  rw [Payloads.pay9_eq, Payloads.pay10_eq, Payloads.pay3_apply, Payloads.pay6_apply, zero_add]

/-- The adding case's contents of window 4's buffer at an index: what it held plus the chunk's term. -/
theorem stepB4 (x0 : Vec Ideal S256x12544 .bf16) (x1 : Vec Ideal S256x12544 .bf16) (xo : Vec Ideal S1x256x256 .f32) (p q : Fin 256) :
    k0_pay3 (F := Ideal) (k0_pay9 x0) (k0_pay10 x1) xo (ix3 (0 : Fin 1) p q)
      = xo (ix3 (0 : Fin 1) p q) + ∑ j : Fin 12544, x0 (ix2 p j) * x1 (ix2 q j) := by
  rw [Payloads.pay9_eq, Payloads.pay10_eq, Payloads.pay3_apply]

/-- At a point whose inner coordinate is zero window 4's buffer ends with the point's term. -/
theorem first4 (n : ℕ) (h : n < cfg0.N) (h0 : n % 4 = 0) (i : Fin 256 × Fin 256) :
    (Fr.outsAt0 m c n h).2.2.1 (ix3 (0 : Fin 1) i.1 i.2)
      = ∑ j : Fin 12544, blk0 m c ⟨n, h⟩ (ix2 i.1 j) * blk1 m c ⟨n, h⟩ (ix2 i.2 j) := by
  have e := congrArg (fun x => x.2.2.1) (Fr.outsAt0_A m c ⟨n, h⟩ h0)
  dsimp only at e
  rw [e, Val.outA_4]
  exact stepA4 (blk0 m c ⟨n, h⟩) (blk1 m c ⟨n, h⟩) i.1 i.2

/-- At every other point it ends with what the point before left plus the point's term. -/
theorem next4 (n : ℕ) (h : n + 1 < cfg0.N) (h0 : ¬(n + 1) % 4 = 0) (i : Fin 256 × Fin 256) :
    (Fr.outsAt0 m c (n + 1) h).2.2.1 (ix3 (0 : Fin 1) i.1 i.2)
      = (Fr.outsAt0 m c n (Nat.lt_of_succ_lt h)).2.2.1 (ix3 (0 : Fin 1) i.1 i.2)
        + ∑ j : Fin 12544, blk0 m c ⟨n + 1, h⟩ (ix2 i.1 j) * blk1 m c ⟨n + 1, h⟩ (ix2 i.2 j) := by
  have e := congrArg (fun x => x.2.2.1) (Fr.outsAt0_B m c ⟨n + 1, h⟩ h0)
  dsimp only at e
  rw [e, Val.outB_4]
  exact stepB4 (blk0 m c ⟨n + 1, h⟩) (blk1 m c ⟨n + 1, h⟩) _ i.1 i.2

/-- At the last point of a row of the grid window 4's buffer holds, at an index, the sum over the row's four chunks
    and the 12544 columns of a chunk of the products of the two rows' entries in that column of the flat arrays. -/
theorem acc4 (t : Fin cfg0.N) (h3 : t.val % 4 = 3) (p q : Fin 256) :
    (Fr.outsAt0 m c t.val t.isLt).2.2.1 (ix3 (0 : Fin 1) p q)
      = ∑ kk : Fin 4, ∑ j : Fin 12544,
          Result.kX m c (ix2 p (chunkIdx (⟨t.val / 4, row_lt t⟩ : Fin 2) kk j))
            * Result.kY m c (ix2 q (chunkIdx (⟨t.val / 4, row_lt t⟩ : Fin 2) kk j)) := by
  refine (closed (ι := Fin 256 × Fin 256) (fun n h i => (Fr.outsAt0 m c n h).2.2.1 (ix3 (0 : Fin 1) i.1 i.2))
    (fun t i => ∑ j : Fin 12544, blk0 m c t (ix2 i.1 j) * blk1 m c t (ix2 i.2 j))
    (first4 m c) (next4 m c) t h3 (p, q)).trans ?_
  refine Finset.sum_congr rfl fun kk _ => ?_
  show ∑ j : Fin 12544, blk0 m c ⟨4 * (t.val / 4) + kk.val, pt_lt t kk⟩ (ix2 p j)
      * blk1 m c ⟨4 * (t.val / 4) + kk.val, pt_lt t kk⟩ (ix2 q j) = _
  refine Finset.sum_congr rfl fun j _ => ?_
  exact congrArg₂ (· * ·) (in0_chunk m c t kk p j) (in1_chunk m c t kk q j)

/-! ## Output window 5 -/

/-- The reset case's contents of window 5's buffer at an index: the chunk's term alone (the stored zero plus it). -/
theorem stepA5 (x0 : Vec Ideal S256x12544 .bf16) (p : Fin 256) :
    k0_pay11 (F := Ideal) x0 (k0_pay7 (F := Ideal)) (ix3 (0 : Fin 1) (0 : Fin 1) p)
      = ∑ j : Fin 12544, x0 (ix2 p j) * x0 (ix2 p j) := by
  rw [Payloads.pay11_apply, Payloads.pay7_apply, zero_add]

/-- The adding case's contents of window 5's buffer at an index: what it held plus the chunk's term. -/
theorem stepB5 (x0 : Vec Ideal S256x12544 .bf16) (xo : Vec Ideal S1x1x256 .f32) (p : Fin 256) :
    k0_pay11 (F := Ideal) x0 xo (ix3 (0 : Fin 1) (0 : Fin 1) p)
      = xo (ix3 (0 : Fin 1) (0 : Fin 1) p) + ∑ j : Fin 12544, x0 (ix2 p j) * x0 (ix2 p j) := by
  rw [Payloads.pay11_apply]

/-- At a point whose inner coordinate is zero window 5's buffer ends with the point's term. -/
theorem first5 (n : ℕ) (h : n < cfg0.N) (h0 : n % 4 = 0) (i : Fin 256) :
    (Fr.outsAt0 m c n h).2.2.2.1 (ix3 (0 : Fin 1) (0 : Fin 1) i)
      = ∑ j : Fin 12544, blk0 m c ⟨n, h⟩ (ix2 i j) * blk0 m c ⟨n, h⟩ (ix2 i j) := by
  have e := congrArg (fun x => x.2.2.2.1) (Fr.outsAt0_A m c ⟨n, h⟩ h0)
  dsimp only at e
  rw [e, Val.outA_5]
  exact stepA5 (blk0 m c ⟨n, h⟩) i

/-- At every other point it ends with what the point before left plus the point's term. -/
theorem next5 (n : ℕ) (h : n + 1 < cfg0.N) (h0 : ¬(n + 1) % 4 = 0) (i : Fin 256) :
    (Fr.outsAt0 m c (n + 1) h).2.2.2.1 (ix3 (0 : Fin 1) (0 : Fin 1) i)
      = (Fr.outsAt0 m c n (Nat.lt_of_succ_lt h)).2.2.2.1 (ix3 (0 : Fin 1) (0 : Fin 1) i)
        + ∑ j : Fin 12544, blk0 m c ⟨n + 1, h⟩ (ix2 i j) * blk0 m c ⟨n + 1, h⟩ (ix2 i j) := by
  have e := congrArg (fun x => x.2.2.2.1) (Fr.outsAt0_B m c ⟨n + 1, h⟩ h0)
  dsimp only at e
  rw [e, Val.outB_5]
  exact stepB5 (blk0 m c ⟨n + 1, h⟩) _ i

/-- At the last point of a row of the grid window 5's buffer holds, at an index, the sum over the row's four chunks
    and the 12544 columns of a chunk of the products of the two rows' entries in that column of the flat arrays. -/
theorem acc5 (t : Fin cfg0.N) (h3 : t.val % 4 = 3) (p : Fin 256) :
    (Fr.outsAt0 m c t.val t.isLt).2.2.2.1 (ix3 (0 : Fin 1) (0 : Fin 1) p)
      = ∑ kk : Fin 4, ∑ j : Fin 12544,
          Result.kX m c (ix2 p (chunkIdx (⟨t.val / 4, row_lt t⟩ : Fin 2) kk j))
            * Result.kX m c (ix2 p (chunkIdx (⟨t.val / 4, row_lt t⟩ : Fin 2) kk j)) := by
  refine (closed (ι := Fin 256) (fun n h i => (Fr.outsAt0 m c n h).2.2.2.1 (ix3 (0 : Fin 1) (0 : Fin 1) i))
    (fun t i => ∑ j : Fin 12544, blk0 m c t (ix2 i j) * blk0 m c t (ix2 i j))
    (first5 m c) (next5 m c) t h3 p).trans ?_
  refine Finset.sum_congr rfl fun kk _ => ?_
  show ∑ j : Fin 12544, blk0 m c ⟨4 * (t.val / 4) + kk.val, pt_lt t kk⟩ (ix2 p j)
      * blk0 m c ⟨4 * (t.val / 4) + kk.val, pt_lt t kk⟩ (ix2 p j) = _
  refine Finset.sum_congr rfl fun j _ => ?_
  exact congrArg₂ (· * ·) (in0_chunk m c t kk p j) (in0_chunk m c t kk p j)

/-! ## Output window 6 -/

/-- The reset case's contents of window 6's buffer at an index: the chunk's term alone (the stored zero plus it). -/
theorem stepA6 (x1 : Vec Ideal S256x12544 .bf16) (p : Fin 256) :
    k0_pay12 (F := Ideal) x1 (k0_pay8 (F := Ideal)) (ix3 (0 : Fin 1) (0 : Fin 1) p)
      = ∑ j : Fin 12544, x1 (ix2 p j) * x1 (ix2 p j) := by
  rw [Payloads.pay12_apply, Payloads.pay8_apply, zero_add]

/-- The adding case's contents of window 6's buffer at an index: what it held plus the chunk's term. -/
theorem stepB6 (x1 : Vec Ideal S256x12544 .bf16) (xo : Vec Ideal S1x1x256 .f32) (p : Fin 256) :
    k0_pay12 (F := Ideal) x1 xo (ix3 (0 : Fin 1) (0 : Fin 1) p)
      = xo (ix3 (0 : Fin 1) (0 : Fin 1) p) + ∑ j : Fin 12544, x1 (ix2 p j) * x1 (ix2 p j) := by
  rw [Payloads.pay12_apply]

/-- At a point whose inner coordinate is zero window 6's buffer ends with the point's term. -/
theorem first6 (n : ℕ) (h : n < cfg0.N) (h0 : n % 4 = 0) (i : Fin 256) :
    (Fr.outsAt0 m c n h).2.2.2.2 (ix3 (0 : Fin 1) (0 : Fin 1) i)
      = ∑ j : Fin 12544, blk1 m c ⟨n, h⟩ (ix2 i j) * blk1 m c ⟨n, h⟩ (ix2 i j) := by
  have e := congrArg (fun x => x.2.2.2.2) (Fr.outsAt0_A m c ⟨n, h⟩ h0)
  dsimp only at e
  rw [e, Val.outA_6]
  exact stepA6 (blk1 m c ⟨n, h⟩) i

/-- At every other point it ends with what the point before left plus the point's term. -/
theorem next6 (n : ℕ) (h : n + 1 < cfg0.N) (h0 : ¬(n + 1) % 4 = 0) (i : Fin 256) :
    (Fr.outsAt0 m c (n + 1) h).2.2.2.2 (ix3 (0 : Fin 1) (0 : Fin 1) i)
      = (Fr.outsAt0 m c n (Nat.lt_of_succ_lt h)).2.2.2.2 (ix3 (0 : Fin 1) (0 : Fin 1) i)
        + ∑ j : Fin 12544, blk1 m c ⟨n + 1, h⟩ (ix2 i j) * blk1 m c ⟨n + 1, h⟩ (ix2 i j) := by
  have e := congrArg (fun x => x.2.2.2.2) (Fr.outsAt0_B m c ⟨n + 1, h⟩ h0)
  dsimp only at e
  rw [e, Val.outB_6]
  exact stepB6 (blk1 m c ⟨n + 1, h⟩) _ i

/-- At the last point of a row of the grid window 6's buffer holds, at an index, the sum over the row's four chunks
    and the 12544 columns of a chunk of the products of the two rows' entries in that column of the flat arrays. -/
theorem acc6 (t : Fin cfg0.N) (h3 : t.val % 4 = 3) (p : Fin 256) :
    (Fr.outsAt0 m c t.val t.isLt).2.2.2.2 (ix3 (0 : Fin 1) (0 : Fin 1) p)
      = ∑ kk : Fin 4, ∑ j : Fin 12544,
          Result.kY m c (ix2 p (chunkIdx (⟨t.val / 4, row_lt t⟩ : Fin 2) kk j))
            * Result.kY m c (ix2 p (chunkIdx (⟨t.val / 4, row_lt t⟩ : Fin 2) kk j)) := by
  refine (closed (ι := Fin 256) (fun n h i => (Fr.outsAt0 m c n h).2.2.2.2 (ix3 (0 : Fin 1) (0 : Fin 1) i))
    (fun t i => ∑ j : Fin 12544, blk1 m c t (ix2 i j) * blk1 m c t (ix2 i j))
    (first6 m c) (next6 m c) t h3 p).trans ?_
  refine Finset.sum_congr rfl fun kk _ => ?_
  show ∑ j : Fin 12544, blk1 m c ⟨4 * (t.val / 4) + kk.val, pt_lt t kk⟩ (ix2 p j)
      * blk1 m c ⟨4 * (t.val / 4) + kk.val, pt_lt t kk⟩ (ix2 p j) = _
  refine Finset.sum_congr rfl fun j _ => ?_
  exact congrArg₂ (· * ·) (in1_chunk m c t kk p j) (in1_chunk m c t kk p j)

end Cert.KernelIdeal.Accum

end
-- ==== Proof.KernelArrays.lean ====
/-
  The five arrays the pallas_call leaves: each is written back once per row block of the grid, after that row
  block's fourth chunk, with the accumulated sum over its four chunks.
-/
import proofs.«116301_j71829033058812_2_alg».proof.Proof.KernelArraysOf
import proofs.«116301_j71829033058812_2_alg».proof.Proof.KernelAccum

noncomputable section

namespace Cert.KernelIdeal.Arrays

open Cert.KernelIdeal Cert.KernelIdeal.Gen
open Idealize.ShloMosaic Idealize.ShloMosaic.TcCoe Idealize.ShloMosaic.ValueIdx Idealize.SL.Sem
open Cert.Mmd (chunkIdx)

variable (m : (ℓ : Loc nD τ sig) → Buf (Elt Ideal) ℓ) (c : Dev nD)

/-- Row block cc of the first Gram array: the sum over its four chunks of the products of rows p and q of x. -/
theorem arr2 : ∀ (cc : Fin 2) (p q : Fin 256), ((Fr.dats m 0 c).arrAt 2 cfg0.N : FVec Ideal S2x256x256 .f32) (ix3 cc p q) = ∑ kk : Fin 4, ∑ j : Fin 12544, Result.kX m c (ix2 p (chunkIdx cc kk j)) * Result.kX m c (ix2 q (chunkIdx cc kk j)) :=
  arr2_of m c (fun t ht p q => Accum.acc2 m c t ht p q)
/-- The same of y with y. -/
theorem arr3 : ∀ (cc : Fin 2) (p q : Fin 256), ((Fr.dats m 0 c).arrAt 3 cfg0.N : FVec Ideal S2x256x256 .f32) (ix3 cc p q) = ∑ kk : Fin 4, ∑ j : Fin 12544, Result.kY m c (ix2 p (chunkIdx cc kk j)) * Result.kY m c (ix2 q (chunkIdx cc kk j)) :=
  arr3_of m c (fun t ht p q => Accum.acc3 m c t ht p q)
/-- The same of x with y. -/
theorem arr4 : ∀ (cc : Fin 2) (p q : Fin 256), ((Fr.dats m 0 c).arrAt 4 cfg0.N : FVec Ideal S2x256x256 .f32) (ix3 cc p q) = ∑ kk : Fin 4, ∑ j : Fin 12544, Result.kX m c (ix2 p (chunkIdx cc kk j)) * Result.kY m c (ix2 q (chunkIdx cc kk j)) :=
  arr4_of m c (fun t ht p q => Accum.acc4 m c t ht p q)
/-- Row block cc of the squared row norms of x. -/
theorem arr5 : ∀ (cc : Fin 2) (p : Fin 256), ((Fr.dats m 0 c).arrAt 5 cfg0.N : FVec Ideal S2x1x256 .f32) (ix3 cc (0 : Fin 1) p) = ∑ kk : Fin 4, ∑ j : Fin 12544, Result.kX m c (ix2 p (chunkIdx cc kk j)) * Result.kX m c (ix2 p (chunkIdx cc kk j)) :=
  arr5_of m c (fun t ht p => Accum.acc5 m c t ht p)
/-- The same of y. -/
theorem arr6 : ∀ (cc : Fin 2) (p : Fin 256), ((Fr.dats m 0 c).arrAt 6 cfg0.N : FVec Ideal S2x1x256 .f32) (ix3 cc (0 : Fin 1) p) = ∑ kk : Fin 4, ∑ j : Fin 12544, Result.kY m c (ix2 p (chunkIdx cc kk j)) * Result.kY m c (ix2 p (chunkIdx cc kk j)) :=
  arr6_of m c (fun t ht p => Accum.acc6 m c t ht p)

end Cert.KernelIdeal.Arrays

end
-- ==== Proof.KernelRun.lean ====
/-
  The idealized kernel program's run, read at its result: the scalar it returns is the shared epilogue applied to the
  Gram entries and squared row norms of the two flattened arguments, because each of the five arrays the pallas_call
  leaves is, row block by row block, the sum over the four chunks of a row block's products; the two arguments end
  unchanged.
-/
import proofs.«116301_j71829033058812_2_alg».proof.Proof.KernelResult
import proofs.«116301_j71829033058812_2_alg».proof.Proof.KernelArrays

noncomputable section

namespace Cert.KernelIdeal.Result

open Cert.KernelIdeal Cert.KernelIdeal.Gen
open Idealize.ShloMosaic Idealize.ShloMosaic.TcCoe Idealize.SL.Sem

/-- The kernel program's result on core c, as a function of the launch memory. -/
def kres (m : (ℓ : Loc nD τ sig) → Buf (Elt Ideal) ℓ) (c : Dev nD) : Buf (Elt Ideal) ((c.tc : Thread nD τ).loc main_v65) :=
  Cert.Mmd.epilogue (fun j => Cert.Mmd.sqn (kX m c) (j 0)) (fun j => Cert.Mmd.sqn (kX m c) (j 0)) (fun j => Cert.Mmd.gram (kX m c) (kX m c) (j 0) (j 1))
    (fun j => Cert.Mmd.sqn (kY m c) (j 0)) (fun j => Cert.Mmd.sqn (kY m c) (j 0)) (fun j => Cert.Mmd.gram (kY m c) (kY m c) (j 0) (j 1))
    (fun j => Cert.Mmd.sqn (kX m c) (j 0)) (fun j => Cert.Mmd.sqn (kY m c) (j 0)) (fun j => Cert.Mmd.gram (kX m c) (kY m c) (j 0) (j 1))

/-- Every weakly fair execution terminates with the result at `kres` and the two arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v65) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v65 (Pipeline.mem_restRefs_of main_v65 (by decide) (by decide))).trans
        (kernel_result m c (Arrays.arr2 m c) (Arrays.arr3 m c) (Arrays.arr4 m c) (Arrays.arr5 m c) (Arrays.arr6 m c)),
     ((h c).2 main_arg0 (Pipeline.mem_restRefs_of main_arg0 (by decide) (by decide))).trans (Fr.W_main_arg0 m (Fr.dats m) c),
     ((h c).2 main_arg1 (Pipeline.mem_restRefs_of main_arg1 (by decide) (by decide))).trans (Fr.W_main_arg1 m (Fr.dats m) c)⟩)
    (Fr.run_main m ρ)

end Cert.KernelIdeal.Result

end
-- ==== Proof.RefValue.lean ====
/-
  The reference's value.

  Its three matrix products read at an index are the Gram entries  Σ_k A(p,k) · B(q,k)  (the second operand enters
  transposed, so the contraction runs over its rows), its six row reductions are the squared row norms
  Σ_k A(p,k)²  (the initial value of each is the word of 0), and everything after them is the shared tail.
  So the reference's result is the shared tail of the norms and Gram entries of the two flattened arguments.
-/
import proofs.«116301_j71829033058812_2_alg».proof.Proof.Gen.ReferenceIdeal.Read
import proofs.«116301_j71829033058812_2_alg».proof.Proof.Spec
import proofs.«116301_j71829033058812_2_alg».proof.Proof.Epilogue

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A matrix product of A with the transpose of B, contracted over the long axis, is the Gram matrix of A and B. -/
theorem ref_gram (A B : FVec Ideal S256x100352 .f32) :
    (Host.dotGeneral (F := Ideal) dot_S256x100352_S100352x256_S256x256_1_0_0_1_n_n none A
      (transpose S100352x256 [1, 0] B transposes_S256x100352_S100352x256_1_0))
    = fun j => Cert.Mmd.gram A B (j 0) (j 1) := by
  funext j
  generalize hT : transpose S100352x256 [1, 0] B transposes_S256x100352_S100352x256_1_0 = Bt
  simp only [Host.dotGeneral]
  rw [Ideal.dotGeneral_apply, ← Equiv.sum_comp (ValueIdx.contrEquiv1 dot_S256x100352_S100352x256_S256x256_1_0_0_1_n_n 100352 rfl rfl).symm]
  show _ = ∑ k : Fin 100352, A (ix2 (j 0) k) * B (ix2 (j 1) k)
  refine Finset.sum_congr rfl fun k _ => ?_
  have hk := ValueIdx.contrEquiv1_symm_val dot_S256x100352_S100352x256_S256x256_1_0_0_1_n_n 100352 rfl rfl k
  have el : dot_S256x100352_S100352x256_S256x256_1_0_0_1_n_n.lhsIdx j ((ValueIdx.contrEquiv1 dot_S256x100352_S100352x256_S256x256_1_0_0_1_n_n 100352 rfl rfl).symm k) = ix2 (j 0) k :=
    funext fun a => Fin.ext (by
      match a with
      | ⟨0, _⟩ => exact lhs_main_v7_0 _ _
      | ⟨1, _⟩ => exact (lhs_main_v7_1 _ _).trans hk)
  have er : dot_S256x100352_S100352x256_S256x256_1_0_0_1_n_n.rhsIdx j ((ValueIdx.contrEquiv1 dot_S256x100352_S100352x256_S256x256_1_0_0_1_n_n 100352 rfl rfl).symm k) = ix2 k (j 1) :=
    funext fun a => Fin.ext (by
      match a with
      | ⟨0, _⟩ => exact (rhs_main_v7_0 _ _).trans hk
      | ⟨1, _⟩ => exact rhs_main_v7_1 _ _)
  rw [el, er, ← hT]
  refine congrArg (A (ix2 (j 0) k) * ·) ?_
  exact transpose_apply [1, 0] B transposes_S256x100352_S100352x256_1_0 (ix2 k (j 1)) (ix2 (j 1) k) (fun b => match b with
    | ⟨0, _⟩ => rfl
    | ⟨1, _⟩ => rfl)

/-- The sum along the long axis of the entrywise square, started from the word of 0, is the squared row norm. -/
theorem ref_sqn (A : FVec Ideal S256x100352 .f32) :
    (Host.reduceAdd (F := Ideal) (mulf A A) (constant (F := Ideal) S_ .f32 0x00000000#32) reducesTo_S256x100352_S256_d1 h_S_)
    = fun j => Cert.Mmd.sqn A (j 0) := by
  funext j
  generalize hy : mulf A A = y0
  simp only [Host.reduceAdd, Ideal.hostReduceAdd_def]
  rw [Ideal.hostReduceAdd_single reducesTo_S256x100352_S256_d1 (by decide)]
  show _ = ∑ k : Fin 100352, A (ix2 (j 0) k) * A (ix2 (j 0) k)
  refine (congrArg₂ (· + ·) Ideal.ofBits_zero_f32 (Finset.sum_congr rfl fun k _ => ?_)).trans (zero_add _)
  subst hy
  exact congrArg (fun i => A i * A i) (funext fun a => Fin.ext (by match a with | ⟨0, _⟩ => rfl | ⟨1, _⟩ => rfl))

/-- The first argument flattened to [256, 100352]. -/
def refX (m : (ℓ : Loc nD τ sig) → Buf (Elt Ideal) ℓ) (c : Dev nD) : FVec Ideal S256x100352 .f32 :=
  shapeCast S256x100352 (m ((c.tc : Thread nD τ).loc main_arg0)) shapeCasts_S256x512x14x14_S256x100352

/-- The second argument flattened to [256, 100352]. -/
def refY (m : (ℓ : Loc nD τ sig) → Buf (Elt Ideal) ℓ) (c : Dev nD) : FVec Ideal S256x100352 .f32 :=
  shapeCast S256x100352 (m ((c.tc : Thread nD τ).loc main_arg1)) shapeCasts_S256x512x14x14_S256x100352

/-- The squared row norms of a flat array, as the reference computes them. -/
abbrev hostSqn (A : FVec Ideal S256x100352 .f32) : FVec Ideal S256 .f32 :=
  Host.reduceAdd (F := Ideal) (mulf A A) (constant (F := Ideal) S_ .f32 0x00000000#32) reducesTo_S256x100352_S256_d1 h_S_

/-- The Gram matrix of two flat arrays, as the reference computes it. -/
abbrev hostGram (A B : FVec Ideal S256x100352 .f32) : FVec Ideal S256x256 .f32 :=
  Host.dotGeneral (F := Ideal) dot_S256x100352_S100352x256_S256x256_1_0_0_1_n_n none A (transpose S100352x256 [1, 0] B transposes_S256x100352_S100352x256_1_0)

theorem hostSqn_eq (A : FVec Ideal S256x100352 .f32) : hostSqn A = fun j => Cert.Mmd.sqn A (j 0) := ref_sqn A

theorem hostGram_eq (A B : FVec Ideal S256x100352 .f32) : hostGram A B = fun j => Cert.Mmd.gram A B (j 0) (j 1) :=
  ref_gram A B

/-- The reference's result is the shared tail of its own reductions and products: only the tail's three definitions
    are opened, the operands stay closed. -/
theorem res_eq_epilogue (m : (ℓ : Loc nD τ sig) → Buf (Elt Ideal) ℓ) (c : Dev nD) :
    Cert.ReferenceIdeal.Value.res_main_v73 (F := Ideal) m c
      = Cert.Mmd.epilogue (hostSqn (refX m c)) (hostSqn (refX m c)) (hostGram (refX m c) (refX m c))
          (hostSqn (refY m c)) (hostSqn (refY m c)) (hostGram (refY m c) (refY m c))
          (hostSqn (refX m c)) (hostSqn (refY m c)) (hostGram (refX m c) (refY m c)) := by
  unfold Cert.ReferenceIdeal.Value.res_main_v73 Cert.Mmd.epilogue Cert.Mmd.mean3 Cert.Mmd.gauss refX refY
  rfl

/-- The reference's result: the shared tail of the squared row norms and Gram entries of the two flattened arguments. -/
theorem ref_result (m : (ℓ : Loc nD τ sig) → Buf (Elt Ideal) ℓ) (c : Dev nD) :
    Cert.ReferenceIdeal.Value.res_main_v73 (F := Ideal) m c
      = Cert.Mmd.epilogue
          (fun j => Cert.Mmd.sqn (refX m c) (j 0)) (fun j => Cert.Mmd.sqn (refX m c) (j 0))
          (fun j => Cert.Mmd.gram (refX m c) (refX m c) (j 0) (j 1))
          (fun j => Cert.Mmd.sqn (refY m c) (j 0)) (fun j => Cert.Mmd.sqn (refY m c) (j 0))
          (fun j => Cert.Mmd.gram (refY m c) (refY m c) (j 0) (j 1))
          (fun j => Cert.Mmd.sqn (refX m c) (j 0)) (fun j => Cert.Mmd.sqn (refY m c) (j 0))
          (fun j => Cert.Mmd.gram (refX m c) (refY m c) (j 0) (j 1)) := by
  rw [res_eq_epilogue, hostSqn_eq, hostSqn_eq, hostGram_eq, hostGram_eq, hostGram_eq]

end Cert.ReferenceIdeal.RefValue

end
-- ==== Proof.lean ====
/-
  The certificate of the MMD-loss kernel against its jnp reference.

  Both programs flatten the two arguments to [256, 100352], form the three Gram matrices x·xᵀ, y·yᵀ, x·yᵀ and the
  squared norms of the rows, and apply the same epilogue: the Gaussian exp(−(max(a² + b² − 2ab, 0)/100352)/2) of each
  pair, then the mean of xx + yy − 2·xy over the 65536 entries. The kernel forms the Gram matrices and the row norms
  in a pallas_call over a 2 × 4 grid: each row block c of the grid accumulates, over its four chunks of 12544 columns,
  the chunk's products onto an output block reset to zero at the first chunk, and the host adds the two row blocks.
  At the ideal instance (floats extended reals, rounding to bf16 the identity) a sum over 100352 columns is the sum over
  2 · 4 · 12544 of them regrouped, which needs only that addition is commutative and associative: the precondition is
  never opened. The three frames: the two kernel programs run because the body meets its obligation at every grid
  point, in its two cases (reset and add); the reference's run is generated. Nothing was rewritten by the ideal pass.
-/
import proofs.«116301_j71829033058812_2_alg».proof.Defs
import proofs.«116301_j71829033058812_2_alg».proof.Proof.FrameBits.Frame
import proofs.«116301_j71829033058812_2_alg».proof.Proof.KernelRun
import proofs.«116301_j71829033058812_2_alg».proof.Proof.RefValue
import proofs.«116301_j71829033058812_2_alg».proof.Proof.Gen.Pre_finite_inputs

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs return the epilogue of the same Gram entries and row norms:
    the kernel's flattened arguments are the reference's. -/
theorem algebraic : Cert.algebraic_KernelIdeal_ReferenceIdeal := by
  intro m ρ m' ρ' _ hagree
  refine ⟨fun c => Cert.KernelIdeal.Result.kres m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  have hX : Cert.ReferenceIdeal.RefValue.refX m' c = Cert.KernelIdeal.Result.kX m c := by
    rw [Cert.KernelIdeal.Result.kX_eq]; unfold Cert.ReferenceIdeal.RefValue.refX; rw [(hagree c).1]
  have hY : Cert.ReferenceIdeal.RefValue.refY m' c = Cert.KernelIdeal.Result.kY m c := by
    rw [Cert.KernelIdeal.Result.kY_eq]; unfold Cert.ReferenceIdeal.RefValue.refY; rw [(hagree c).2]
  rw [Cert.ReferenceIdeal.RefValue.ref_result, hX, hY]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
